-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1000 : Shape := ⟨2, ![256, 1000]⟩
abbrev S256 : Shape := ⟨1, ![256]⟩
abbrev S_ : Shape := ⟨0, ![]⟩

class Facts : Prop where
  bcast_S_S256x1000 : S_.BroadcastsInDim S256x1000 (![] : Fin 0 → Fin S256x1000.rank)
  reducesTo_S256x1000_S_d0_1 : S256x1000.ReducesTo [0, 1] S_
  h_S_ : 0 < S_.numel

variable [Facts]

def fn {F : FTy → Type} [FloatOps F] (main_arg0 : FVec F S256x1000 .f32) (main_arg1 : FVec F S256x1000 .f32) (main_arg2 : IVec S256 32) : IVec S_ 1 :=
  let main_v0 : FVec F S256x1000 .f32 := Host.absf main_arg0
  let main_cst : FVec F S_ .f32 := constant S_ .f32 0x7F800000#32
  let main_v1 : FVec F S256x1000 .f32 := broadcastInDim S256x1000 ![] bcast_S_S256x1000 main_cst
  let main_v2 : IVec S256x1000 1 := cmpf .olt main_v0 main_v1
  let main_c : IVec S_ 1 := constantI S_ 1 1#1
  let main_v3 : IVec S_ 1 := (fun x v => Host.reduce IntOp.andi x v reducesTo_S256x1000_S_d0_1 h_S_) main_v2 main_c
  let main_v4 : FVec F S256x1000 .f32 := Host.absf main_arg1
  let main_cst_0 : FVec F S_ .f32 := constant S_ .f32 0x7F800000#32
  let main_v5 : FVec F S256x1000 .f32 := broadcastInDim S256x1000 ![] bcast_S_S256x1000 main_cst_0
  let main_v6 : IVec S256x1000 1 := cmpf .olt main_v4 main_v5
  let main_c_1 : IVec S_ 1 := constantI S_ 1 1#1
  let main_v7 : IVec S_ 1 := (fun x v => Host.reduce IntOp.andi x v reducesTo_S256x1000_S_d0_1 h_S_) main_v6 main_c_1
  let main_v8 : IVec S_ 1 := andi main_v3 main_v7
  main_v8
-- ==== Kernel.lean ====
abbrev S256x1000 : Shape := ⟨2, ![256, 1000]⟩
abbrev S256 : Shape := ⟨1, ![256]⟩
abbrev S_ : Shape := ⟨0, ![]⟩
abbrev S256x1 : Shape := ⟨2, ![256, 1]⟩
abbrev S256x1x1000 : Shape := ⟨3, ![256, 1, 1000]⟩
abbrev S1x1 : Shape := ⟨2, ![1, 1]⟩
abbrev S1x1x1000 : Shape := ⟨3, ![1, 1, 1000]⟩
abbrev S1x1000 : Shape := ⟨2, ![1, 1000]⟩
abbrev S1000x256 : Shape := ⟨2, ![1000, 256]⟩
abbrev S256x256 : Shape := ⟨2, ![256, 256]⟩
abbrev S1 : Shape := ⟨1, ![1]⟩
abbrev S256x1x1 : Shape := ⟨3, ![256, 1, 1]⟩
abbrev S1x1x1 : Shape := ⟨3, ![1, 1, 1]⟩

abbrev nBuf : Space → Nat
  | .hbm => 90
  | .vmem => 8
  | .smem => 0
  | _ => 0

abbrev bufTy : (tb : Table) → Fin (tcTables nBuf tb) → BufTy
  | .hbm, ⟨0, _⟩ => ⟨S256x1000, .f32⟩
  | .hbm, ⟨1, _⟩ => ⟨S256x1000, .f32⟩
  | .hbm, ⟨2, _⟩ => ⟨S256, .i32⟩
  | .hbm, ⟨3, _⟩ => ⟨S_, .f32⟩
  | .hbm, ⟨4, _⟩ => ⟨S256x1000, .f32⟩
  | .hbm, ⟨5, _⟩ => ⟨S256x1000, .f32⟩
  | .hbm, ⟨6, _⟩ => ⟨S_, .f32⟩
  | .hbm, ⟨7, _⟩ => ⟨S256, .f32⟩
  | .hbm, ⟨8, _⟩ => ⟨S_, .f32⟩
  | .hbm, ⟨9, _⟩ => ⟨S256, .f32⟩
  | .hbm, ⟨10, _⟩ => ⟨S256, .f32⟩
  | .hbm, ⟨11, _⟩ => ⟨S256x1, .f32⟩
  | .hbm, ⟨12, _⟩ => ⟨S256x1000, .f32⟩
  | .hbm, ⟨13, _⟩ => ⟨S256x1000, .f32⟩
  | .hbm, ⟨14, _⟩ => ⟨S256x1000, .f32⟩
  | .hbm, ⟨15, _⟩ => ⟨S_, .f32⟩
  | .hbm, ⟨16, _⟩ => ⟨S256, .f32⟩
  | .hbm, ⟨17, _⟩ => ⟨S256x1, .f32⟩
  | .hbm, ⟨18, _⟩ => ⟨S256x1, .f32⟩
  | .hbm, ⟨19, _⟩ => ⟨S256x1000, .f32⟩
  | .hbm, ⟨20, _⟩ => ⟨S256x1000, .f32⟩
  | .hbm, ⟨21, _⟩ => ⟨S_, .f32⟩
  | .hbm, ⟨22, _⟩ => ⟨S256x1000, .f32⟩
  | .hbm, ⟨23, _⟩ => ⟨S256x1000, .f32⟩
  | .hbm, ⟨24, _⟩ => ⟨S_, .f32⟩
  | .hbm, ⟨25, _⟩ => ⟨S256, .f32⟩
  | .hbm, ⟨26, _⟩ => ⟨S_, .f32⟩
  | .hbm, ⟨27, _⟩ => ⟨S256, .f32⟩
  | .hbm, ⟨28, _⟩ => ⟨S256, .f32⟩
  | .hbm, ⟨29, _⟩ => ⟨S256x1, .f32⟩
  | .hbm, ⟨30, _⟩ => ⟨S256x1000, .f32⟩
  | .hbm, ⟨31, _⟩ => ⟨S256x1000, .f32⟩
  | .hbm, ⟨32, _⟩ => ⟨S256x1000, .f32⟩
  | .hbm, ⟨33, _⟩ => ⟨S_, .f32⟩
  | .hbm, ⟨34, _⟩ => ⟨S256, .f32⟩
  | .hbm, ⟨35, _⟩ => ⟨S256x1, .f32⟩
  | .hbm, ⟨36, _⟩ => ⟨S256x1000, .f32⟩
  | .hbm, ⟨37, _⟩ => ⟨S256x1000, .f32⟩
  | .hbm, ⟨38, _⟩ => ⟨S256x1x1000, .f32⟩
  | .hbm, ⟨39, _⟩ => ⟨S256x1x1000, .f32⟩
  | .hbm, ⟨40, _⟩ => ⟨S1x1, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S256, .f32⟩
  | .hbm, ⟨46, _⟩ => ⟨S_, .f32⟩
  | .hbm, ⟨47, _⟩ => ⟨S256, .f32⟩
  | .hbm, ⟨48, _⟩ => ⟨S256, .f32⟩
  | .hbm, ⟨49, _⟩ => ⟨S256x1, .f32⟩
  | .hbm, ⟨50, _⟩ => ⟨S256x1000, .f32⟩
  | .hbm, ⟨51, _⟩ => ⟨S256x1000, .f32⟩
  | .hbm, ⟨52, _⟩ => ⟨S256x1000, .f32⟩
  | .hbm, ⟨53, _⟩ => ⟨S_, .f32⟩
  | .hbm, ⟨54, _⟩ => ⟨S256, .f32⟩
  | .hbm, ⟨55, _⟩ => ⟨S256x1, .f32⟩
  | .hbm, ⟨56, _⟩ => ⟨S256x1, .f32⟩
  | .hbm, ⟨57, _⟩ => ⟨S256x1000, .f32⟩
  | .hbm, ⟨58, _⟩ => ⟨S256x1000, .f32⟩
  | .hbm, ⟨59, _⟩ => ⟨S256x1, .i32⟩
  | .hbm, ⟨60, _⟩ => ⟨S_, .i32⟩
  | .hbm, ⟨61, _⟩ => ⟨S256x1, .i32⟩
  | .hbm, ⟨62, _⟩ => ⟨S256x1, .i1⟩
  | .hbm, ⟨63, _⟩ => ⟨S_, .i32⟩
  | .hbm, ⟨64, _⟩ => ⟨S256x1, .i32⟩
  | .hbm, ⟨65, _⟩ => ⟨S256x1, .i32⟩
  | .hbm, ⟨66, _⟩ => ⟨S256x1, .i32⟩
  | .hbm, ⟨67, _⟩ => ⟨S256x1x1, .i32⟩
  | .hbm, ⟨68, _⟩ => ⟨S1, .i32⟩
  | .hbm, ⟨69, _⟩ => ⟨S_, .i32⟩
  | .hbm, ⟨70, _⟩ => ⟨S256x1x1, .i32⟩
  | .hbm, ⟨71, _⟩ => ⟨S256x1x1, .i1⟩
  | .hbm, ⟨72, _⟩ => ⟨S1x1x1, .i32⟩
  | .hbm, ⟨73, _⟩ => ⟨S256x1x1, .i32⟩
  | .hbm, ⟨74, _⟩ => ⟨S256x1x1, .i1⟩
  | .hbm, ⟨75, _⟩ => ⟨S256x1x1, .i1⟩
  | .hbm, ⟨76, _⟩ => ⟨S_, .i1⟩
  | .hbm, ⟨77, _⟩ => ⟨S256x1, .i1⟩
  | .hbm, ⟨78, _⟩ => ⟨S256x1, .f32⟩
  | .hbm, ⟨79, _⟩ => ⟨S_, .f32⟩
  | .hbm, ⟨80, _⟩ => ⟨S256x1, .f32⟩
  | .hbm, ⟨81, _⟩ => ⟨S256x1, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .local _ .vmem, ⟨0, _⟩ => ⟨S256x1000, .f32⟩
  | .local _ .vmem, ⟨1, _⟩ => ⟨S256x1000, .f32⟩
  | .local _ .vmem, ⟨2, _⟩ => ⟨S1x1x1000, .f32⟩
  | .local _ .vmem, ⟨3, _⟩ => ⟨S1x1x1000, .f32⟩
  | .local _ .vmem, ⟨4, _⟩ => ⟨S1x1x1000, .f32⟩
  | .local _ .vmem, ⟨5, _⟩ => ⟨S1x1x1000, .f32⟩
  | .local _ .vmem, ⟨6, _⟩ => ⟨S1x1, .f32⟩
  | .local _ .vmem, ⟨7, _⟩ => ⟨S1x1, .f32⟩
  | _, _ => ⟨S256x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_call0_cst_0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_cst_1 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_cst_1 : Ref sig .tc := ⟨.hbm, 24, rfl⟩
abbrev main_v5 : Ref sig .tc := ⟨.hbm, 25, rfl⟩
abbrev main_cst_2 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_3 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_4 : Ref sig .tc := ⟨.hbm, 42, rfl⟩
abbrev main_v20 : Ref sig .tc := ⟨.hbm, 43, rfl⟩
abbrev main_call1_cst : Ref sig .tc := ⟨.hbm, 44, rfl⟩
abbrev main_call1_v0 : Ref sig .tc := ⟨.hbm, 45, rfl⟩
abbrev main_call1_cst_0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_v6 : Ref sig .tc := ⟨.hbm, 52, rfl⟩
abbrev main_call1_cst_1 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_v21 : Ref sig .tc := ⟨.hbm, 58, rfl⟩
abbrev main_v22 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_c_1 : Ref sig .tc := ⟨.hbm, 68, rfl⟩
abbrev main_call2_c_2 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_3 : Ref sig .tc := ⟨.hbm, 76, rfl⟩
abbrev main_call2_v12 : Ref sig .tc := ⟨.hbm, 77, rfl⟩
abbrev main_call2_v13 : Ref sig .tc := ⟨.hbm, 78, rfl⟩
abbrev main_call2_cst : Ref sig .tc := ⟨.hbm, 79, rfl⟩
abbrev main_call2_v14 : Ref sig .tc := ⟨.hbm, 80, rfl⟩
abbrev main_v23 : Ref sig .tc := ⟨.hbm, 81, rfl⟩
abbrev main_cst_5 : Ref sig .tc := ⟨.hbm, 82, rfl⟩
abbrev main_v24 : Ref sig .tc := ⟨.hbm, 83, rfl⟩
abbrev main_cst_6 : Ref sig .tc := ⟨.hbm, 84, rfl⟩
abbrev main_v25 : Ref sig .tc := ⟨.hbm, 85, rfl⟩
abbrev main_v26 : Ref sig .tc := ⟨.hbm, 86, rfl⟩
abbrev main_cst_7 : Ref sig .tc := ⟨.hbm, 87, rfl⟩
abbrev main_v27 : Ref sig .tc := ⟨.hbm, 88, rfl⟩
abbrev main_v28 : Ref sig .tc := ⟨.hbm, 89, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![256], ![false]⟩

def k0_cond2 (i : grid0.Coords) : BitVec 1 :=
  let arg0 : BitVec 32 := BitVec.ofNat 32 (i 0).val
  let c255_i32 : BitVec 32 := 255#32
  let v56 : BitVec 1 := Scalar.cmpi .eq arg0 c255_i32
  let v57 : BitVec 32 := Scalar.extui v56
  let c0_i32_24 : BitVec 32 := 0#32
  let v58 : BitVec 1 := Scalar.cmpi .ne v57 c0_i32_24
  v58

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  bcast_S_S256x1000 : S_.BroadcastsInDim S256x1000 (![] : Fin 0 → Fin S256x1000.rank)
  reducesTo_S256x1000_S256_d1 : S256x1000.ReducesTo [1] S256
  h_S_ : 0 < S_.numel
  bcast_S_S256 : S_.BroadcastsInDim S256 (![] : Fin 0 → Fin S256.rank)
  bcast_S256_S256x1_0 : S256.BroadcastsInDim S256x1 (![0] : Fin 1 → Fin S256x1.rank)
  bcast_S256x1_S256x1000_0_1 : S256x1.BroadcastsInDim S256x1000 (![0, 1] : Fin 2 → Fin S256x1000.rank)
  bcast_S256x1000_S256x1x1000_0_2 : S256x1000.BroadcastsInDim S256x1x1000 (![0, 2] : Fin 2 → Fin S256x1x1000.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1x1000_S1x1x1000_0_0_0 : ∀ a, (![0, 0, 0] : Fin 3 → Nat) a + S1x1x1000.size a ≤ S1x1x1000.size a
  h_S1x1x1000 : 0 < S1x1x1000.numel
  shapeCasts_S1x1x1000_S1x1000 : S1x1x1000.ShapeCasts S1x1000
  inb_S256x1000_S256x1000_0_0 : ∀ a, (![0, 0] : Fin 2 → Nat) a + S256x1000.size a ≤ S256x1000.size a
  h_S256x1000 : 0 < S256x1000.numel
  shapeCasts_S256x1000_S256x1000 : S256x1000.ShapeCasts S256x1000
  broadcasts_S1x1000_S256x1000 : S1x1000.Broadcasts S256x1000
  reduces_S256x1000_S256 : S256x1000.Reduces [1] S256
  shapeCasts_S256_S256x1 : S256.ShapeCasts S256x1
  broadcasts_S256x1_S256x1000 : S256x1.Broadcasts S256x1000
  bitsLt_bf16_f32 : FTy.bits .bf16 < FTy.bits .f32
  transposes_S256x1000_p1_0_S1000x256 : S256x1000.Transposes [1, 0] S1000x256
  reduces_S256x256_S256 : S256x256.Reduces [1] S256
  reduces_S256x1_S1 : S256x1.Reduces [0] S1
  shapeCasts_S1_S1x1 : S1.ShapeCasts S1x1
  shapeCasts_S1x1_S_ : S1x1.ShapeCasts S_
  bcast_S_S256x1 : S_.BroadcastsInDim S256x1 (![] : Fin 0 → Fin S256x1.rank)
  shapeCasts_S256x1_S256x1x1 : S256x1.ShapeCasts S256x1x1
  bcast_S_S256x1x1 : S_.BroadcastsInDim S256x1x1 (![] : Fin 0 → Fin S256x1x1.rank)
  bcast_S1_S1x1x1_2 : S1.BroadcastsInDim S1x1x1 (![2] : Fin 1 → Fin S1x1x1.rank)
  bcast_S1x1x1_S256x1x1_0_1_2 : S1x1x1.BroadcastsInDim S256x1x1 (![0, 1, 2] : Fin 3 → Fin S256x1x1.rank)
  reducesTo_S256x1x1_S256x1_d2 : S256x1x1.ReducesTo [2] S256x1
  reducesTo_S256x1_S_d0_1 : S256x1.ReducesTo [0, 1] S_
  dot_S256x1000_S1000x256_S256x256_1_0_0_1_n_n_wf : DotDims.WF S256x1000 S1000x256 S256x256 [1] [0] [0] [1] [] []
  gather_S256x1000_S256x1x1_S256x1_n_1_0_0_1_2_11_wf : GatherDims.WF S256x1000 S256x1x1 S256x1 [] [1] [0] [1] [0] 2 ![1, 1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x1000.size a ≤ S256x1000.size a
  hwx0_0 : ∀ i : grid0.Coords, EltTy.bits .f32 = 32 ∨ (Rect.block (s := S256x1000) S256x1000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1000.size a ≤ S256x1000.size a
  hwx0_1 : ∀ i : grid0.Coords, EltTy.bits .f32 = 32 ∨ (Rect.block (s := S256x1000) S256x1000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1000.size a ≤ S256x1x1000.size a
  hwx0_2 : ∀ i : grid0.Coords, EltTy.bits .f32 = 32 ∨ (Rect.block (s := S256x1x1000) S1x1x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1000.size a ≤ S256x1x1000.size a
  hwx0_3 : ∀ i : grid0.Coords, EltTy.bits .f32 = 32 ∨ (Rect.block (s := S256x1x1000) S1x1x1000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S256x1000_S1000x256_S256x256_1_0_0_1_n_n : DotDims S256x1000 S1000x256 S256x256 where
  lhsContracting := [1]
  rhsContracting := [0]
  lhsNonContracting := [0]
  rhsNonContracting := [1]
  lhsBatch := []
  rhsBatch := []
  wf := dot_S256x1000_S1000x256_S256x256_1_0_0_1_n_n_wf
def gather_S256x1000_S256x1x1_S256x1_n_1_0_0_1_2_11 : GatherDims S256x1000 S256x1x1 S256x1 where
  offsetDims := []
  collapsedSliceDims := [1]
  operandBatchingDims := [0]
  startIndicesBatchingDims := [0]
  startIndexMap := [1]
  indexVectorDim := 2
  sliceSizes := ![1, 1]
  wf := gather_S256x1000_S256x1x1_S256x1_n_1_0_0_1_2_11_wf

abbrev win0_0 : Pipeline.Window sig grid0 :=
  Pipeline.Window.ofSpec (Memref.whole main_v15) S256x1000.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x1000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x1x1000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x1x1000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S256x1000 : Shape := ⟨2, ![256, 1000]⟩
abbrev S256 : Shape := ⟨1, ![256]⟩
abbrev S_ : Shape := ⟨0, ![]⟩
abbrev S256x1 : Shape := ⟨2, ![256, 1]⟩
abbrev S1x256x1000 : Shape := ⟨3, ![1, 256, 1000]⟩
abbrev S256x1x1000 : Shape := ⟨3, ![256, 1, 1000]⟩
abbrev S256x256x1000 : Shape := ⟨3, ![256, 256, 1000]⟩
abbrev S256x256 : Shape := ⟨2, ![256, 256]⟩
abbrev S256x256x1 : Shape := ⟨3, ![256, 256, 1]⟩
abbrev S256x256x256 : Shape := ⟨3, ![256, 256, 256]⟩
abbrev S16777216 : Shape := ⟨1, ![16777216]⟩
abbrev S256x1x1 : Shape := ⟨3, ![256, 1, 1]⟩
abbrev S1 : Shape := ⟨1, ![1]⟩
abbrev S1x1x1 : Shape := ⟨3, ![1, 1, 1]⟩

abbrev nBuf : Space → Nat
  | .hbm => 135
  | .vmem => 0
  | .smem => 0
  | _ => 0

abbrev hbmTy0_0 (i : Nat) : BufTy := match i % 128 with
  | 0 => ⟨S256x1000, .f32⟩
  | 1 => ⟨S256x1000, .f32⟩
  | 2 => ⟨S256, .i32⟩
  | 3 => ⟨S_, .f32⟩
  | 4 => ⟨S256x1000, .f32⟩
  | 5 => ⟨S256x1000, .f32⟩
  | 6 => ⟨S_, .f32⟩
  | 7 => ⟨S256, .f32⟩
  | 8 => ⟨S_, .f32⟩
  | 9 => ⟨S256, .f32⟩
  | 10 => ⟨S256, .f32⟩
  | 11 => ⟨S256x1, .f32⟩
  | 12 => ⟨S256x1000, .f32⟩
  | 13 => ⟨S256x1000, .f32⟩
  | 14 => ⟨S256x1000, .f32⟩
  | 15 => ⟨S_, .f32⟩
  | 16 => ⟨S256, .f32⟩
  | 17 => ⟨S256x1, .f32⟩
  | 18 => ⟨S256x1, .f32⟩
  | 19 => ⟨S256x1000, .f32⟩
  | 20 => ⟨S256x1000, .f32⟩
  | 21 => ⟨S_, .f32⟩
  | 22 => ⟨S256x1000, .f32⟩
  | 23 => ⟨S256x1000, .f32⟩
  | 24 => ⟨S_, .f32⟩
  | 25 => ⟨S256, .f32⟩
  | 26 => ⟨S_, .f32⟩
  | 27 => ⟨S256, .f32⟩
  | 28 => ⟨S256, .f32⟩
  | 29 => ⟨S256x1, .f32⟩
  | 30 => ⟨S256x1000, .f32⟩
  | 31 => ⟨S256x1000, .f32⟩
  | 32 => ⟨S256x1000, .f32⟩
  | 33 => ⟨S_, .f32⟩
  | 34 => ⟨S256, .f32⟩
  | 35 => ⟨S256x1, .f32⟩
  | 36 => ⟨S256x1000, .f32⟩
  | 37 => ⟨S256x1000, .f32⟩
  | 38 => ⟨S1x256x1000, .f32⟩
  | 39 => ⟨S256x1x1000, .f32⟩
  | 40 => ⟨S256x256x1000, .f32⟩
  | 41 => ⟨S256x256x1000, .f32⟩
  | 42 => ⟨S256x256x1000, .f32⟩
  | 43 => ⟨S256x256x1000, .f32⟩
  | 44 => ⟨S_, .f32⟩
  | 45 => ⟨S256x256, .f32⟩
  | 46 => ⟨S256x256x1, .f32⟩
  | 47 => ⟨S256x256x1, .f32⟩
  | 48 => ⟨S_, .f32⟩
  | 49 => ⟨S256x256x1, .f32⟩
  | 50 => ⟨S256x256x1, .f32⟩
  | 51 => ⟨S256x256x1000, .f32⟩
  | 52 => ⟨S256x256x1000, .f32⟩
  | 53 => ⟨S256x256x256, .f32⟩
  | 54 => ⟨S16777216, .f32⟩
  | 55 => ⟨S1x256x1000, .f32⟩
  | 56 => ⟨S256x1x1000, .f32⟩
  | 57 => ⟨S256x256x1000, .f32⟩
  | 58 => ⟨S256x256x1000, .f32⟩
  | 59 => ⟨S256x256x1000, .f32⟩
  | 60 => ⟨S256x256x1000, .f32⟩
  | 61 => ⟨S_, .f32⟩
  | 62 => ⟨S256x256, .f32⟩
  | 63 => ⟨S256x256x1, .f32⟩
  | 64 => ⟨S256x256x1, .f32⟩
  | 65 => ⟨S_, .f32⟩
  | 66 => ⟨S256x256x1, .f32⟩
  | 67 => ⟨S256x256x1, .f32⟩
  | 68 => ⟨S256x256x1000, .f32⟩
  | 69 => ⟨S256x256x1000, .f32⟩
  | 70 => ⟨S256x256x256, .f32⟩
  | 71 => ⟨S16777216, .f32⟩
  | 72 => ⟨S16777216, .f32⟩
  | 73 => ⟨S16777216, .f32⟩
  | 74 => ⟨S_, .f32⟩
  | 75 => ⟨S16777216, .f32⟩
  | 76 => ⟨S16777216, .i1⟩
  | 77 => ⟨S_, .f32⟩
  | 78 => ⟨S16777216, .f32⟩
  | 79 => ⟨S16777216, .f32⟩
  | 80 => ⟨S16777216, .f32⟩
  | 81 => ⟨S_, .f32⟩
  | 82 => ⟨S16777216, .f32⟩
  | 83 => ⟨S16777216, .f32⟩
  | 84 => ⟨S16777216, .f32⟩
  | 85 => ⟨S_, .f32⟩
  | 86 => ⟨S_, .f32⟩
  | 87 => ⟨S_, .f32⟩
  | 88 => ⟨S_, .f32⟩
  | 89 => ⟨S_, .f32⟩
  | 90 => ⟨S256, .f32⟩
  | 91 => ⟨S_, .f32⟩
  | 92 => ⟨S256, .f32⟩
  | 93 => ⟨S256, .f32⟩
  | 94 => ⟨S256x1, .f32⟩
  | 95 => ⟨S256x1000, .f32⟩
  | 96 => ⟨S256x1000, .f32⟩
  | 97 => ⟨S256x1000, .f32⟩
  | 98 => ⟨S_, .f32⟩
  | 99 => ⟨S256, .f32⟩
  | 100 => ⟨S256x1, .f32⟩
  | 101 => ⟨S256x1, .f32⟩
  | 102 => ⟨S256x1000, .f32⟩
  | 103 => ⟨S256x1000, .f32⟩
  | 104 => ⟨S256x1, .i32⟩
  | 105 => ⟨S_, .i32⟩
  | 106 => ⟨S256x1, .i32⟩
  | 107 => ⟨S256x1, .i1⟩
  | 108 => ⟨S_, .i32⟩
  | 109 => ⟨S256x1, .i32⟩
  | 110 => ⟨S256x1, .i32⟩
  | 111 => ⟨S256x1, .i32⟩
  | 112 => ⟨S256x1x1, .i32⟩
  | 113 => ⟨S1, .i32⟩
  | 114 => ⟨S_, .i32⟩
  | 115 => ⟨S256x1x1, .i32⟩
  | 116 => ⟨S256x1x1, .i1⟩
  | 117 => ⟨S1x1x1, .i32⟩
  | 118 => ⟨S256x1x1, .i32⟩
  | 119 => ⟨S256x1x1, .i1⟩
  | 120 => ⟨S256x1x1, .i1⟩
  | 121 => ⟨S_, .i1⟩
  | 122 => ⟨S256x1, .i1⟩
  | 123 => ⟨S256x1, .f32⟩
  | 124 => ⟨S_, .f32⟩
  | 125 => ⟨S256x1, .f32⟩
  | 126 => ⟨S256x1, .f32⟩
  | 127 => ⟨S_, .f32⟩
  | _ => ⟨S256x1000, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | _ => ⟨S256x1000, .f32⟩

abbrev hbmTy (i : Nat) : BufTy := match i / 128 with
  | 0 => hbmTy0_0 i
  | 1 => hbmTy0_1 i
  | _ => ⟨S256x1000, .f32⟩

abbrev bufTy : (tb : Table) → Fin (tcTables nBuf tb) → BufTy
  | .hbm, ⟨i, _⟩ => hbmTy i
  | _, _ => ⟨S256x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_call0_cst_0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_cst_1 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_cst_1 : Ref sig .tc := ⟨.hbm, 24, rfl⟩
abbrev main_v5 : Ref sig .tc := ⟨.hbm, 25, rfl⟩
abbrev main_cst_2 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_3 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_8 : Ref sig .tc := ⟨.hbm, 74, rfl⟩
abbrev main_v48 : Ref sig .tc := ⟨.hbm, 75, rfl⟩
abbrev main_v49 : Ref sig .tc := ⟨.hbm, 76, rfl⟩
abbrev main_cst_9 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_10 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_11 : Ref sig .tc := ⟨.hbm, 85, rfl⟩
abbrev main_v56 : Ref sig .tc := ⟨.hbm, 86, rfl⟩
abbrev main_cst_12 : Ref sig .tc := ⟨.hbm, 87, rfl⟩
abbrev main_v57 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v58 : Ref sig .tc := ⟨.hbm, 103, rfl⟩
abbrev main_v59 : Ref sig .tc := ⟨.hbm, 104, rfl⟩
abbrev main_call3_c : Ref sig .tc := ⟨.hbm, 105, rfl⟩
abbrev main_call3_v0 : Ref sig .tc := ⟨.hbm, 106, rfl⟩
abbrev main_call3_v1 : Ref sig .tc := ⟨.hbm, 107, rfl⟩
abbrev main_call3_c_0 : Ref sig .tc := ⟨.hbm, 108, rfl⟩
abbrev main_call3_v2 : Ref sig .tc := ⟨.hbm, 109, rfl⟩
abbrev main_call3_v3 : Ref sig .tc := ⟨.hbm, 110, rfl⟩
abbrev main_call3_v4 : Ref sig .tc := ⟨.hbm, 111, rfl⟩
abbrev main_call3_v5 : Ref sig .tc := ⟨.hbm, 112, rfl⟩
abbrev main_call3_c_1 : Ref sig .tc := ⟨.hbm, 113, rfl⟩
abbrev main_call3_c_2 : Ref sig .tc := ⟨.hbm, 114, rfl⟩
abbrev main_call3_v6 : Ref sig .tc := ⟨.hbm, 115, rfl⟩
abbrev main_call3_v7 : Ref sig .tc := ⟨.hbm, 116, rfl⟩
abbrev main_call3_v8 : Ref sig .tc := ⟨.hbm, 117, rfl⟩
abbrev main_call3_v9 : Ref sig .tc := ⟨.hbm, 118, rfl⟩
abbrev main_call3_v10 : Ref sig .tc := ⟨.hbm, 119, rfl⟩
abbrev main_call3_v11 : Ref sig .tc := ⟨.hbm, 120, rfl⟩
abbrev main_call3_c_3 : Ref sig .tc := ⟨.hbm, 121, rfl⟩
abbrev main_call3_v12 : Ref sig .tc := ⟨.hbm, 122, rfl⟩
abbrev main_call3_v13 : Ref sig .tc := ⟨.hbm, 123, rfl⟩
abbrev main_call3_cst : Ref sig .tc := ⟨.hbm, 124, rfl⟩
abbrev main_call3_v14 : Ref sig .tc := ⟨.hbm, 125, rfl⟩
abbrev main_v60 : Ref sig .tc := ⟨.hbm, 126, rfl⟩
abbrev main_cst_13 : Ref sig .tc := ⟨.hbm, 127, rfl⟩
abbrev main_v61 : Ref sig .tc := ⟨.hbm, 128, rfl⟩
abbrev main_cst_14 : Ref sig .tc := ⟨.hbm, 129, rfl⟩
abbrev main_v62 : Ref sig .tc := ⟨.hbm, 130, rfl⟩
abbrev main_v63 : Ref sig .tc := ⟨.hbm, 131, rfl⟩
abbrev main_cst_15 : Ref sig .tc := ⟨.hbm, 132, rfl⟩
abbrev main_v64 : Ref sig .tc := ⟨.hbm, 133, rfl⟩
abbrev main_v65 : Ref sig .tc := ⟨.hbm, 134, rfl⟩

abbrev nD : Nat := 1
abbrev τ : Topo := Topo.v7x

variable {F : FTy → Type} [FloatOps F]

class Facts₀ : Prop where
  bcast_S_S256x1000 : S_.BroadcastsInDim S256x1000 (![] : Fin 0 → Fin S256x1000.rank)
  reducesTo_S256x1000_S256_d1 : S256x1000.ReducesTo [1] S256
  h_S_ : 0 < S_.numel
  bcast_S_S256 : S_.BroadcastsInDim S256 (![] : Fin 0 → Fin S256.rank)
  bcast_S256_S256x1_0 : S256.BroadcastsInDim S256x1 (![0] : Fin 1 → Fin S256x1.rank)
  bcast_S256x1_S256x1000_0_1 : S256x1.BroadcastsInDim S256x1000 (![0, 1] : Fin 2 → Fin S256x1000.rank)
  bcast_S256x1000_S1x256x1000_1_2 : S256x1000.BroadcastsInDim S1x256x1000 (![1, 2] : Fin 2 → Fin S1x256x1000.rank)
  bcast_S256x1000_S256x1x1000_0_2 : S256x1000.BroadcastsInDim S256x1x1000 (![0, 2] : Fin 2 → Fin S256x1x1000.rank)
  bcast_S1x256x1000_S256x256x1000_0_1_2 : S1x256x1000.BroadcastsInDim S256x256x1000 (![0, 1, 2] : Fin 3 → Fin S256x256x1000.rank)
  bcast_S256x1x1000_S256x256x1000_0_1_2 : S256x1x1000.BroadcastsInDim S256x256x1000 (![0, 1, 2] : Fin 3 → Fin S256x256x1000.rank)
  reducesTo_S256x256x1000_S256x256_d2 : S256x256x1000.ReducesTo [2] S256x256
  bcast_S256x256_S256x256x1_0_1 : S256x256.BroadcastsInDim S256x256x1 (![0, 1] : Fin 2 → Fin S256x256x1.rank)
  bcast_S_S256x256x1 : S_.BroadcastsInDim S256x256x1 (![] : Fin 0 → Fin S256x256x1.rank)
  bcast_S256x256x1_S256x256x1000_0_1_2 : S256x256x1.BroadcastsInDim S256x256x1000 (![0, 1, 2] : Fin 3 → Fin S256x256x1000.rank)
  shapeCasts_S256x256x256_S16777216 : S256x256x256.ShapeCasts S16777216
  bcast_S_S16777216 : S_.BroadcastsInDim S16777216 (![] : Fin 0 → Fin S16777216.rank)
  reducesTo_S16777216_S_d0 : S16777216.ReducesTo [0] S_
  bcast_S_S256x1 : S_.BroadcastsInDim S256x1 (![] : Fin 0 → Fin S256x1.rank)
  shapeCasts_S256x1_S256x1x1 : S256x1.ShapeCasts S256x1x1
  bcast_S_S256x1x1 : S_.BroadcastsInDim S256x1x1 (![] : Fin 0 → Fin S256x1x1.rank)
  bcast_S1_S1x1x1_2 : S1.BroadcastsInDim S1x1x1 (![2] : Fin 1 → Fin S1x1x1.rank)
  bcast_S1x1x1_S256x1x1_0_1_2 : S1x1x1.BroadcastsInDim S256x1x1 (![0, 1, 2] : Fin 3 → Fin S256x1x1.rank)
  reducesTo_S256x1x1_S256x1_d2 : S256x1x1.ReducesTo [2] S256x1
  reducesTo_S256x1_S_d0_1 : S256x1.ReducesTo [0, 1] S_
  dot_S256x256x1000_S256x256x1000_S256x256x256_2_2_1_1_0_0_wf : DotDims.WF S256x256x1000 S256x256x1000 S256x256x256 [2] [2] [1] [1] [0] [0]
  gather_S256x1000_S256x1x1_S256x1_n_1_0_0_1_2_11_wf : GatherDims.WF S256x1000 S256x1x1 S256x1 [] [1] [0] [1] [0] 2 ![1, 1]

variable [Facts₀]

def dot_S256x256x1000_S256x256x1000_S256x256x256_2_2_1_1_0_0 : DotDims S256x256x1000 S256x256x1000 S256x256x256 where
  lhsContracting := [2]
  rhsContracting := [2]
  lhsNonContracting := [1]
  rhsNonContracting := [1]
  lhsBatch := [0]
  rhsBatch := [0]
  wf := dot_S256x256x1000_S256x256x1000_S256x256x256_2_2_1_1_0_0_wf
def gather_S256x1000_S256x1x1_S256x1_n_1_0_0_1_2_11 : GatherDims S256x1000 S256x1x1 S256x1 where
  offsetDims := []
  collapsedSliceDims := [1]
  operandBatchingDims := [0]
  startIndicesBatchingDims := [0]
  startIndexMap := [1]
  indexVectorDim := 2
  sliceSizes := ![1, 1]
  wf := gather_S256x1000_S256x1x1_S256x1_n_1_0_0_1_2_11_wf

class Facts : Prop extends Facts₀ where

variable [Facts]
-- ==== Proof.Pieces.lean ====
/-
  What each case of the body leaves behind, as the body's arithmetic of the blocks it loaded.

  The body runs in three cases. At the first anchor it stores a zero into its accumulator, reads it back and stores the
  zero plus the anchor's loss sum; at a middle anchor it stores the accumulator's contents plus the anchor's loss sum; at
  the last anchor it does the same and then copies the accumulator into the output block. Every load reads a whole
  buffer, so each stored value is the body's arithmetic applied to the four input blocks and to the accumulator's
  contents at the point's start.
-/
import proofs.«121610_j57019985822344_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- The loss sum of the loaded blocks added to `acc`. -/
abbrev stepF (x0 x1 : Vec F S256x1000 .f32) (x2 x3 : Vec F S1x1x1000 .f32) (acc : Vec F S1x1 .f32) : Vec F S1x1 .f32 :=
  k0_pay1 (k0_pay3 x2 x3 x0 x1) (k0_pay4 x2 x3 x0 x1) (Scalar.ofBits .f32 0x3F800000#32) acc

/-- A middle anchor: the accumulator ends at its contents plus the anchor's loss sum. -/
theorem sout_B (c : Dev nD) (i : grid0.Coords) (a1 : Memref sig .tc .vmem S256x1000 .f32) (h1 : a1.IsWhole) (a2 : Memref sig .tc .vmem S256x1000 .f32) (h2 : a2.IsWhole) (a3 : Memref sig .tc .vmem S1x1x1000 .f32) (h3 : a3.IsWhole) (a4 : Memref sig .tc .vmem S1x1x1000 .f32) (h4 : a4.IsWhole) (a5 : Memref sig .tc .vmem S1x1 .f32) (h5 : a5.IsWhole) (a6 : Memref sig .tc .vmem S1x1 .f32) (h6 : a6.IsWhole) (hc0 : ¬cond0_0 i) (hc1 : ¬cond0_1 i) (x0 : Vec F S256x1000 .f32) (x1 : Vec F S256x1000 .f32) (x2 : Vec F S1x1x1000 .f32) (x3 : Vec F S1x1x1000 .f32) (xs0 : Vec F S1x1 .f32) :
    sout0_B_0 c i a1 h1 a2 h2 a3 h3 a4 h4 a5 h5 a6 h6 hc0 hc1 x0 x1 x2 x3 xs0 = stepF x0 x1 x2 x3 xs0 := by
  unfold sout0_B_0
  rw [View.read_writes_eq_canon _ _ _ (scover0_B_0 c i a1 h1 a2 h2 a3 h3 a4 h4 a5 h5 a6 h6 hc0 hc1 x0 x1 x2 x3 xs0)]
  unfold kernelRun0_B
  dsimp only
  sl_unfold_words
  rw [View.canon_unit_zero hz]
  simp only [View.readAt_eq_ld, h1.read_unread, h2.read_unread, h3.read_unread, h4.read_unread, h6.read_unread,
    View.ld_unit_zero (S := S1x1) hz, View.ld_unit_zero (S := S256x1000) hz, View.ld_unit_zero (S := S1x1x1000) hz3]

/-- The last anchor: the accumulator likewise, -/
theorem sout_C (c : Dev nD) (i : grid0.Coords) (a1 : Memref sig .tc .vmem S256x1000 .f32) (h1 : a1.IsWhole) (a2 : Memref sig .tc .vmem S256x1000 .f32) (h2 : a2.IsWhole) (a3 : Memref sig .tc .vmem S1x1x1000 .f32) (h3 : a3.IsWhole) (a4 : Memref sig .tc .vmem S1x1x1000 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i) (x0 : Vec F S256x1000 .f32) (x1 : Vec F S256x1000 .f32) (x2 : Vec F S1x1x1000 .f32) (x3 : Vec F S1x1x1000 .f32) (xs0 : Vec F S1x1 .f32) :
    sout0_C_0 c i a1 h1 a2 h2 a3 h3 a4 h4 a5 h5 a6 h6 hc0 hc1 x0 x1 x2 x3 xs0 = stepF x0 x1 x2 x3 xs0 := by
  unfold sout0_C_0
  rw [View.read_writes_eq_canon _ _ _ (scover0_C_0 c i a1 h1 a2 h2 a3 h3 a4 h4 a5 h5 a6 h6 hc0 hc1 x0 x1 x2 x3 xs0)]
  unfold kernelRun0_C
  dsimp only
  sl_unfold_words
  rw [View.canon_unit_zero hz]
  simp only [View.readAt_eq_ld, h1.read_unread, h2.read_unread, h3.read_unread, h4.read_unread, h6.read_unread,
    View.ld_unit_zero (S := S1x1) hz, View.ld_unit_zero (S := S256x1000) hz, View.ld_unit_zero (S := S1x1x1000) hz3]

/-- and the output block is a copy of it. -/
theorem out_C (c : Dev nD) (i : grid0.Coords) (a1 : Memref sig .tc .vmem S256x1000 .f32) (h1 : a1.IsWhole) (a2 : Memref sig .tc .vmem S256x1000 .f32) (h2 : a2.IsWhole) (a3 : Memref sig .tc .vmem S1x1x1000 .f32) (h3 : a3.IsWhole) (a4 : Memref sig .tc .vmem S1x1x1000 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i) (x0 : Vec F S256x1000 .f32) (x1 : Vec F S256x1000 .f32) (x2 : Vec F S1x1x1000 .f32) (x3 : Vec F S1x1x1000 .f32) (xs0 : Vec F S1x1 .f32) :
    out0_C_4 c i a1 h1 a2 h2 a3 h3 a4 h4 a5 h5 a6 h6 hc0 hc1 x0 x1 x2 x3 xs0 = stepF x0 x1 x2 x3 xs0 := by
  unfold out0_C_4
  rw [View.read_writes_eq_canon _ _ _ (cover0_C_4 c i a1 h1 a2 h2 a3 h3 a4 h4 a5 h5 a6 h6 hc0 hc1 x0 x1 x2 x3 xs0)]
  unfold kernelRun0_C
  dsimp only
  sl_unfold_words
  rw [View.canon_unit_zero hz]
  simp only [View.readAt_eq_ld, h1.read_unread, h2.read_unread, h3.read_unread, h4.read_unread, h6.read_unread,
    View.ld_unit_zero (S := S1x1) hz, View.ld_unit_zero (S := S256x1000) hz, View.ld_unit_zero (S := S1x1x1000) hz3,
    View.readCov_unit_zero (S := S1x1) _ hz]

/-- The first anchor: the accumulator ends at the stored zero plus the anchor's loss sum. -/
theorem sout_A (c : Dev nD) (i : grid0.Coords) (a1 : Memref sig .tc .vmem S256x1000 .f32) (h1 : a1.IsWhole) (a2 : Memref sig .tc .vmem S256x1000 .f32) (h2 : a2.IsWhole) (a3 : Memref sig .tc .vmem S1x1x1000 .f32) (h3 : a3.IsWhole) (a4 : Memref sig .tc .vmem S1x1x1000 .f32) (h4 : a4.IsWhole) (a5 : Memref sig .tc .vmem S1x1 .f32) (h5 : a5.IsWhole) (a6 : Memref sig .tc .vmem S1x1 .f32) (h6 : a6.IsWhole) (hc0 : cond0_0 i) (hc1 : ¬cond0_1 i) (x0 : Vec F S256x1000 .f32) (x1 : Vec F S256x1000 .f32) (x2 : Vec F S1x1x1000 .f32) (x3 : Vec F S1x1x1000 .f32) :
    sout0_A_0 c i a1 h1 a2 h2 a3 h3 a4 h4 a5 h5 a6 h6 hc0 hc1 x0 x1 x2 x3 = stepF x0 x1 x2 x3 (k0_pay2 (F := F)) := by
  unfold sout0_A_0
  rw [View.read_writes_eq_canon _ _ _ (scover0_A_0 c i a1 h1 a2 h2 a3 h3 a4 h4 a5 h5 a6 h6 hc0 hc1 x0 x1 x2 x3)]
  unfold kernelRun0_A
  dsimp only
  sl_unfold_words
  rw [View.canon_cons_unit_zero (S := S1x1) hz]
  simp only [View.readAt_eq_ld, h1.read_unread, h2.read_unread, h3.read_unread, h4.read_unread,
    View.ld_unit_zero (S := S1x1) hz, View.ld_unit_zero (S := S256x1000) hz, View.ld_unit_zero (S := S1x1x1000) hz3,
    View.readCov_unit_zero (S := S1x1) _ hz]

end Cert.KernelIdeal.Pieces

end
-- ==== Proof.Spec.lean ====
/-
  The distance-angle loss, entry by entry, on the extended reals.

  Two tables of `256` rows and `1000` columns are given, `A` and `C`. For an anchor `b` and a row `i` the difference
  vector is row `i` of `A` minus row `b` of `C`; it is divided by its Euclidean length, the length floored at a small
  positive constant; the angle entry `(b, i, j)` is the inner product of the two normalized difference vectors of rows `i`
  and `j`. The loss entry `(b, i, j)` is the smooth absolute value (half the square below one, the absolute value less a
  half from one on) of the student's angle entry minus the teacher's, and the total is the sum of the `256³` loss entries.
  Every operation is the exact one on the extended reals; the three constants are kept as the words both programs print.
-/
import Idealize.ShloMosaic.PureOps.Ideal.Laws
import Idealize.ShloMosaic.Lib.ValueIdx

noncomputable section

namespace Cert.AngleLoss

open Idealize.ShloMosaic Idealize.ShloMosaic.ValueIdx
open scoped BigOperators

/-- A table of `256` rows of `1000` extended reals. -/
abbrev Tab : Type := (⟨2, ![256, 1000]⟩ : Shape).Idx → EReal

/-- The floor of a length: the single-precision word nearest `1e-12`. -/
def floorLen : EReal := Ideal.ofBits .f32 0x2B8CBCCC#32
/-- One. -/
def one : EReal := Ideal.ofBits .f32 0x3F800000#32
/-- A half. -/
def half : EReal := Ideal.ofBits .f32 0x3F000000#32

/-- Row `i` of `A` minus row `b` of `C`, at column `c`. -/
def diff (A C : Tab) (b i : Fin 256) (c : Fin 1000) : EReal := A (ix2 i c) - C (ix2 b c)

/-- The length of that difference vector, floored. -/
def len (A C : Tab) (b i : Fin 256) : EReal :=
  max (Ideal.sqrt (∑ c : Fin 1000, diff A C b i c * diff A C b i c)) floorLen

/-- The normalized difference vector. -/
def dir (A C : Tab) (b i : Fin 256) (c : Fin 1000) : EReal := Ideal.div (diff A C b i c) (len A C b i)

/-- The angle entry `(b, i, j)`: the inner product of the normalized difference vectors of rows `i` and `j`. -/
def angle (A C : Tab) (b i j : Fin 256) : EReal := ∑ c : Fin 1000, dir A C b i c * dir A C b j c

/-- The smooth absolute value. -/
def smoothAbs (d : EReal) : EReal :=
  Scalar.select (Ideal.cmp .olt (max d (-d)) one) (half * d * d) (max d (-d) - half)

/-- The loss entry `(b, i, j)`: the student's table `S` against the raw table `X`, the teacher's table `T` against itself. -/
def loss (T S X : Tab) (b i j : Fin 256) : EReal := smoothAbs (angle S X b i j - angle T T b i j)

/-- The sum of all loss entries. -/
def total (T S X : Tab) : EReal := ∑ b : Fin 256, ∑ i : Fin 256, ∑ j : Fin 256, loss T S X b i j

end Cert.AngleLoss

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.LibColumn.lean ====
/-
  A column vector's layout operations read at an index.

  A vector of `a` entries reshaped to a column `[a, 1]` reads, at `(i, 0)`, the vector's entry `i`; a column `[a, 1]`
  broadcast along its unit axis to `[a, b]` reads, at `(p, c)`, the column's entry `p`, whatever the column `c`. These
  are the column counterparts of the library's row forms (a vector as one row, one row broadcast over many).
-/
import Idealize.ShloMosaic.Lib.ValueIdx
import Idealize.ShloMosaic.Lib.Pipeline.Value

noncomputable section

namespace Cert.Lib

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibRowMax.lean ====
/-
  A row's maximum read at an index.

  A `vector.multi_reduction <maximumf>` of an `[R, K]` array over its second axis, read on the extended reals at row
  `p`, is the fold of `max` from the accumulator's value over the `K` entries `src (p, k)` of that row: the reduced index
  `(p)` with the coordinate `k` put back on the reduced axis is `(p, k)`.
-/
import Idealize.ShloMosaic.PureOps.Ideal.Laws
import Idealize.ShloMosaic.Lib.ValueIdx

noncomputable section

namespace Cert.Lib

open Idealize.ShloMosaic Idealize.ShloMosaic.ValueIdx

variable {R K : ℕ}

/-- The reduced index `(p)` with coordinate `k` inserted on axis 1 is `(p, k)`. -/
theorem lift_lastAxis2 (h : (⟨2, ![R, K]⟩ : Shape).Reduces [1] (⟨1, ![R]⟩ : Shape)) (p : Fin R)
    (k : Fin ((⟨2, ![R, K]⟩ : Shape).size 1)) : h.lift (ix1 p) k = ix2 p (⟨k.val, k.isLt⟩ : Fin K) := by
  funext c; apply Fin.ext
  fin_cases c <;> rfl

/-- A float maximum over the second axis of an `[R, K]` array, at row `p`: the fold of `max` over that row. -/
theorem multiReduction_maximumf_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.maximumf.neutral φ hφ) (p : Fin R) :
    multiReduction .maximumf [1] (⟨1, ![R]⟩ : Shape) src acc h hφ hacc (ix1 p)
      = (Finset.univ : Finset (Fin K)).fold max (Ideal.ofBits φ acc) (fun k => src (ix2 p k)) := by
  refine (Ideal.multiReduction_maximumf_single src acc h hφ hacc (ix1 p)).trans ?_
  have hf : (src ∘ h.lift (ix1 p)) = fun k : Fin K => src (ix2 p k) :=
    funext fun k => congrArg src (lift_lastAxis2 h p k)
  exact congrArg (fun f => Finset.fold max (Ideal.ofBits φ acc) f (Finset.univ : Finset (Fin K))) hf

end Cert.Lib

end
-- ==== Proof.LibRowSum.lean ====
/-
  A row's sum read at an index.

  A `vector.multi_reduction <add>` of an `[R, K]` array over its second axis, read on the extended reals at row `p`, is
  the sum of the `K` entries `src (p, k)` of that row (the accumulator is the additive neutral word, so nothing is added
  in front); the host's one-operand `reduce` with an add body over the same axis is its initial value plus that sum.
-/
import Idealize.ShloMosaic.PureOps.Ideal.Laws
import Idealize.ShloMosaic.Lib.ValueIdx
import proofs.«121610_j57019985822344_2_alg».proof.Proof.LibRowMax

noncomputable section

namespace Cert.Lib

open Idealize.ShloMosaic Idealize.ShloMosaic.ValueIdx
open scoped BigOperators

variable {R K : ℕ}

/-- A float sum over the second axis of an `[R, K]` array, at row `p`: the sum over that row. -/
theorem multiReduction_add_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin K, src (ix2 p k) := by
  refine (Ideal.multiReduction_add_single src acc h hφ hacc (ix1 p)).trans ?_
  exact Finset.sum_congr rfl fun k _ => congrArg src (lift_lastAxis2 h p k)

/-- The host's float sum over the second axis of an `[R, K]` array, at row `p`: the initial value plus the sum over that row. -/
theorem hostReduceAdd_rows {φ : FTy} {u : Shape} (x : FVec Ideal ⟨2, ![R, K]⟩ φ) (init : u.Idx → Ideal φ)
    (h' : (⟨2, ![R, K]⟩ : Shape).ReducesTo [1] (⟨1, ![R]⟩ : Shape)) (h : (⟨2, ![R, K]⟩ : Shape).Reduces [1] (⟨1, ![R]⟩ : Shape))
    (hu : 0 < u.numel) (p : Fin R) :
    Host.reduceAdd x init h' hu (ix1 p) = init (Shape.Idx.first hu) + ∑ k : Fin K, x (ix2 p k) := by
  unfold Host.reduceAdd
  rw [Ideal.hostReduceAdd_def, Ideal.hostReduceAdd_single h' h]
  exact congrArg (_ + ·) (Finset.sum_congr rfl fun k _ => congrArg x (lift_lastAxis2 h p k))

end Cert.Lib

end
-- ==== Proof.PointValue.lean ====
/-
  One grid point of the kernel, read on the extended reals.

  At anchor `b` the body holds two whole tables (the teacher's and the student's) and one row of each of two tables (row `b`
  of the teacher's table and row `b` of the raw table). It subtracts the row from every row of the table, divides each
  difference row by its floored Euclidean length, and multiplies the table of normalized rows by its own transpose: entry
  `(i, j)` of that product is the inner product of normalized rows `i` and `j`, which is the angle entry `(b, i, j)`. The
  difference of the two products goes through the smooth absolute value entry by entry, the `256 × 256` results are summed
  (along the rows, then down the column of row sums), and the sum is added to the running total the body finds in its
  accumulator. A change of float format is the identity on the extended reals, so the half-width operands of the products
  are the normalized rows themselves.
-/
import proofs.«121610_j57019985822344_2_alg».proof.Proof.Gen.KernelIdeal.Skeleton
import proofs.«121610_j57019985822344_2_alg».proof.Proof.Spec
import proofs.«121610_j57019985822344_2_alg».proof.Proof.LibMatDot
import proofs.«121610_j57019985822344_2_alg».proof.Proof.LibColumn
import proofs.«121610_j57019985822344_2_alg».proof.Proof.LibRowSum
import Idealize.ShloMosaic.Lib.ValueLayout
import Idealize.ShloMosaic.Lib.Pipeline.Value

noncomputable section

namespace Cert.KernelIdeal.PointValue

open Cert.KernelIdeal Cert.KernelIdeal.Gen
open Idealize.ShloMosaic Idealize.ShloMosaic.ValueIdx Cert.AngleLoss
open scoped BigOperators

/-! ## The pieces of the body's arithmetic -/

/-- Every row of a table less one row. -/
def less (tab : FVec Ideal S256x1000 .f32) (row : FVec Ideal S1x1x1000 .f32) : FVec Ideal S256x1000 .f32 :=
  subf (shapeCast S256x1000 tab shapeCasts_S256x1000_S256x1000)
    (broadcastTo S256x1000 (shapeCast S1x1000 row shapeCasts_S1x1x1000_S1x1000) broadcasts_S1x1000_S256x1000)

/-- Every row divided by its floored Euclidean length. -/
def unitRows (d : FVec Ideal S256x1000 .f32) : FVec Ideal S256x1000 .bf16 :=
  truncf .bf16 (divf d (broadcastTo S256x1000
    (maximumf (sqrt (shapeCast S256x1 (multiReduction .add [1] S256 (mulf d d) 0x00000000#32 reduces_S256x1000_S256 (.inl rfl) rfl) shapeCasts_S256_S256x1))
      (broadcast S256x1 (Scalar.ofBits .f32 0x2B8CBCCC#32))) broadcasts_S256x1_S256x1000)) bitsLt_bf16_f32

/-- A table of rows times its transpose. -/
def gram (u : FVec Ideal S256x1000 .bf16) : FVec Ideal S256x256 .f32 :=
  matmul dot_S256x1000_S1000x256_S256x256_1_0_0_1_n_n none u
    (transpose S1000x256 [1, 0] u transposes_S256x1000_p1_0_S1000x256) (constant S256x256 .f32 0x00000000#32)

/-- The smooth absolute value of every entry of `d`, given its absolute values `a` and the threshold `o`. -/
def smoothTab (d a : FVec Ideal S256x256 .f32) (o : Ideal .f32) : FVec Ideal S256x256 .f32 :=
  select (cmpf .olt a (broadcast S256x256 o))
    (mulf (mulf (broadcast S256x256 (Scalar.ofBits .f32 0x3F000000#32)) d) d)
    (subf a (broadcast S256x256 (Scalar.ofBits .f32 0x3F000000#32)))

/-- The sum of all entries of a `256 × 256` table: along the rows, then down the column of row sums. -/
def sumAll (L : FVec Ideal S256x256 .f32) : FVec Ideal S1x1 .f32 :=
  shapeCast S1x1 (multiReduction .add [0] S1
    (shapeCast S256x1 (multiReduction .add [1] S256 L 0x00000000#32 reduces_S256x256_S256 (.inl rfl) rfl) shapeCasts_S256_S256x1)
    0x00000000#32 reduces_S256x1_S1 (.inl rfl) rfl) shapeCasts_S1_S1x1

/-- The body's difference of the two products is the student's Gram table less the teacher's. -/
theorem pay3_eq (v3 v5 : FVec Ideal S1x1x1000 .f32) (v7 v11 : FVec Ideal S256x1000 .f32) :
    k0_pay3 (F := Ideal) v3 v5 v7 v11 = subf (gram (unitRows (less v11 v5))) (gram (unitRows (less v7 v3))) := rfl

/-- The body's absolute values are those of that difference. -/
theorem pay4_eq (v3 v5 : FVec Ideal S1x1x1000 .f32) (v7 v11 : FVec Ideal S256x1000 .f32) :
    k0_pay4 (F := Ideal) v3 v5 v7 v11 = absf (k0_pay3 (F := Ideal) v3 v5 v7 v11) := rfl

/-- The value the body stores into its accumulator: what it found there plus the sum of the smooth absolute values. -/
theorem pay1_eq (v37 v38 : FVec Ideal S256x256 .f32) (cst : Ideal .f32) (v51 : FVec Ideal S1x1 .f32) :
    k0_pay1 (F := Ideal) v37 v38 cst v51
      = shapeCast S1x1 (addf v51 (sumAll (smoothTab v37 v38 cst))) shapeCasts_S1x1_S1x1 := rfl

/-! ## Each piece at an index -/

theorem less_apply (tab : FVec Ideal S256x1000 .f32) (row : FVec Ideal S1x1x1000 .f32) (i : Fin 256) (c : Fin 1000) :
    less tab row (ix2 i c) = tab (ix2 i c) - row (ix3 (0 : Fin 1) (0 : Fin 1) c) := by
  unfold less
  refine (subf_apply _ _ _).trans ?_
  have e1 : shapeCast S256x1000 tab shapeCasts_S256x1000_S256x1000 (ix2 i c) = tab (ix2 i c) := by
    rw [shapeCast_self]
  have e2 : broadcastTo S256x1000 (shapeCast S1x1000 row shapeCasts_S1x1x1000_S1x1000) broadcasts_S1x1000_S256x1000 (ix2 i c)
      = row (ix3 (0 : Fin 1) (0 : Fin 1) c) := by
    refine (broadcastTo_apply _ _ (ix2 i c) (ix2 (0 : Fin 1) c) (fun a => by
      match a with
      | ⟨0, _⟩ => rfl
      | ⟨1, _⟩ => rfl)).trans ?_
    exact shapeCast_apply row _ (ix2 (0 : Fin 1) c) (ix3 (0 : Fin 1) (0 : Fin 1) c) (by
      rw [Shape.rowMajor_val_three, Shape.rowMajor_val_two]
      show (0 * 1 + 0) * 1000 + c.val = 0 * 1000 + c.val
      omega)
  rw [e1, e2]

theorem unitRows_apply (d : FVec Ideal S256x1000 .f32) (i : Fin 256) (c : Fin 1000) :
    unitRows d (ix2 i c)
      = Ideal.div (d (ix2 i c)) (max (Ideal.sqrt (∑ k : Fin 1000, d (ix2 i k) * d (ix2 i k))) floorLen) := by
  unfold unitRows
  refine (truncf_apply (ψ := .bf16) _ bitsLt_bf16_f32 _).trans ?_
  refine (divf_apply _ _ _).trans ?_
  refine congrArg (Ideal.div (d (ix2 i c))) ?_
  refine (Cert.Lib.broadcastTo_a1_ab_apply _ _ i c).trans ?_
  refine (maximumf_apply _ _ _).trans ?_
  refine congrArg₂ max ?_ rfl
  show Ideal.sqrt (shapeCast S256x1 _ _ (ix2 i (0 : Fin 1))) = _
  refine congrArg Ideal.sqrt ?_
  refine (Cert.Lib.shapeCast_a_a1_apply _ _ i 0).trans ?_
  refine (Cert.Lib.multiReduction_add_rows _ _ _ _ _ i).trans ?_
  rfl

theorem gram_apply (u : FVec Ideal S256x1000 .bf16) (i j : Fin 256) :
    gram u (ix2 i j) = ∑ k : Fin 1000, u (ix2 i k) * u (ix2 j k) := by
  unfold gram
  refine (Cert.Lib.matmul_plain_zero_apply dot_S256x1000_S1000x256_S256x256_1_0_0_1_n_n_wf none u _ i j).trans ?_
  exact Finset.sum_congr rfl fun k _ => congrArg (u (ix2 i k) * ·) (transpose_ix2_apply u _ k j)

theorem smoothTab_apply (d : FVec Ideal S256x256 .f32) (i j : Fin 256) :
    smoothTab d (absf d) (Scalar.ofBits .f32 0x3F800000#32) (ix2 i j) = smoothAbs (d (ix2 i j)) := rfl

theorem sumAll_apply (L : FVec Ideal S256x256 .f32) :
    sumAll L (ix2 (0 : Fin 1) (0 : Fin 1)) = ∑ i : Fin 256, ∑ j : Fin 256, L (ix2 i j) := by
  unfold sumAll
  refine (shapeCast_apply _ shapeCasts_S1_S1x1 (ix2 (0 : Fin 1) (0 : Fin 1)) (ix1 (0 : Fin 1)) (by
    rw [Shape.rowMajor_val_one, Shape.rowMajor_val_two]; rfl)).trans ?_
  refine (Ideal.multiReduction_add_single _ _ reduces_S256x1_S1 _ _ (ix1 (0 : Fin 1))).trans ?_
  refine Finset.sum_congr rfl fun k _ => ?_
  have hl : reduces_S256x1_S1.lift (ix1 (0 : Fin 1)) k = ix2 (⟨k.val, k.isLt⟩ : Fin 256) (0 : Fin 1) := by
    funext a; apply Fin.ext
    fin_cases a <;> rfl
  rw [hl]
  refine (Cert.Lib.shapeCast_a_a1_apply _ _ _ 0).trans ?_
  exact Cert.Lib.multiReduction_add_rows _ _ _ _ _ _

/-! ## The point -/

/-- The normalized difference row `(b, i)` of tables `A`, `C`, from a table holding `A` and a row holding row `b` of `C`. -/
theorem unit_eq (A C : Tab) (b : Fin 256) (tab : FVec Ideal S256x1000 .f32) (row : FVec Ideal S1x1x1000 .f32)
    (ht : ∀ i c, tab (ix2 i c) = A (ix2 i c)) (hr : ∀ c, row (ix3 (0 : Fin 1) (0 : Fin 1) c) = C (ix2 b c))
    (i : Fin 256) (c : Fin 1000) : unitRows (less tab row) (ix2 i c) = dir A C b i c := by
  rw [unitRows_apply]
  unfold dir len diff
  simp only [less_apply, ht, hr]

/-- The body's difference table at `(i, j)`: the student's angle entry less the teacher's. -/
theorem pay3_apply (T S X : Tab) (b : Fin 256) (v3 v5 : FVec Ideal S1x1x1000 .f32) (v7 v11 : FVec Ideal S256x1000 .f32)
    (h7 : ∀ i c, v7 (ix2 i c) = T (ix2 i c)) (h11 : ∀ i c, v11 (ix2 i c) = S (ix2 i c))
    (h3 : ∀ c, v3 (ix3 (0 : Fin 1) (0 : Fin 1) c) = T (ix2 b c)) (h5 : ∀ c, v5 (ix3 (0 : Fin 1) (0 : Fin 1) c) = X (ix2 b c))
    (i j : Fin 256) :
    k0_pay3 (F := Ideal) v3 v5 v7 v11 (ix2 i j) = angle S X b i j - angle T T b i j := by
  rw [pay3_eq]
  refine (subf_apply _ _ _).trans ?_
  rw [gram_apply, gram_apply]
  unfold angle
  refine congrArg₂ (· - ·) ?_ ?_
  · exact Finset.sum_congr rfl fun k _ => by rw [unit_eq S X b v11 v5 h11 h5, unit_eq S X b v11 v5 h11 h5]
  · exact Finset.sum_congr rfl fun k _ => by rw [unit_eq T T b v7 v3 h7 h3, unit_eq T T b v7 v3 h7 h3]

/-- What one point leaves in the accumulator, from what it found there. -/
def step (x0 x1 : FVec Ideal S256x1000 .f32) (x2 x3 : FVec Ideal S1x1x1000 .f32) (acc : FVec Ideal S1x1 .f32) :
    FVec Ideal S1x1 .f32 :=
  k0_pay1 (F := Ideal) (k0_pay3 (F := Ideal) x2 x3 x0 x1) (k0_pay4 (F := Ideal) x2 x3 x0 x1) (Scalar.ofBits .f32 0x3F800000#32) acc

/-- One point adds the `256 × 256` loss entries of its anchor to the running total. -/
theorem step_apply (T S X : Tab) (b : Fin 256) (x0 x1 : FVec Ideal S256x1000 .f32) (x2 x3 : FVec Ideal S1x1x1000 .f32)
    (h0 : ∀ i c, x0 (ix2 i c) = T (ix2 i c)) (h1 : ∀ i c, x1 (ix2 i c) = S (ix2 i c))
    (h2 : ∀ c, x2 (ix3 (0 : Fin 1) (0 : Fin 1) c) = T (ix2 b c)) (h3 : ∀ c, x3 (ix3 (0 : Fin 1) (0 : Fin 1) c) = X (ix2 b c))
    (acc : FVec Ideal S1x1 .f32) :
    step x0 x1 x2 x3 acc (ix2 (0 : Fin 1) (0 : Fin 1))
      = acc (ix2 (0 : Fin 1) (0 : Fin 1)) + ∑ i : Fin 256, ∑ j : Fin 256, loss T S X b i j := by
  unfold step
  rw [pay4_eq, pay1_eq, shapeCast_self]
  refine (addf_apply _ _ _).trans ?_
  rw [sumAll_apply]
  refine congrArg (acc (ix2 (0 : Fin 1) (0 : Fin 1)) + ·) ?_
  refine Finset.sum_congr rfl fun i _ => Finset.sum_congr rfl fun j _ => ?_
  rw [smoothTab_apply, pay3_apply T S X b x2 x3 x0 x1 h0 h1 h2 h3]
  rfl

/-- The zero the first point stores before it accumulates. -/
theorem pay2_apply : k0_pay2 (F := Ideal) (ix2 (0 : Fin 1) (0 : Fin 1)) = 0 := by
  unfold k0_pay2
  rw [shapeCast_self]
  exact Ideal.ofBits_zero_f32

end Cert.KernelIdeal.PointValue

end
-- ==== Proof.Blocks.lean ====
/-
  The blocks the body loads at anchor `t`.

  The first two windows hold the whole teacher table and the whole student table at every anchor (their block is the
  array). The other two windows hold one row: row `t` of a `256 × 1 × 1000` copy of the teacher table, and row `t` of
  the same kind of copy of the raw table; the copies are made before the region by inserting a unit axis, so entry
  `(t, 0, c)` of a copy is entry `(t, c)` of the table.
-/
import proofs.«121610_j57019985822344_2_alg».proof.Proof.Gen.KernelIdeal.Frame
import proofs.«121610_j57019985822344_2_alg».proof.Proof.Spec
import Idealize.ShloMosaic.Lib.Pipeline.Value
import Idealize.ShloMosaic.Lib.StableHlo.Run
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The teacher table as the region finds it. -/
abbrev teacher (c : Dev nD) : FVec Ideal S256x1000 .f32 := V m c main_v15
/-- The student table as the region finds it. -/
abbrev student (c : Dev nD) : FVec Ideal S256x1000 .f32 := V m c main_v2
/-- The raw table: the first argument. -/
abbrev raw (c : Dev nD) : FVec Ideal S256x1000 .f32 := m ((c : Thread nD τ).loc main_arg0)

/-- The index maps over the grid: the whole-table windows never move, the row windows sit at row `t`. -/
theorem idx_facts : ∀ t : Fin cfg0.N,
    win0_0.index t 0 = 0 ∧ win0_0.index t 1 = 0 ∧ win0_1.index t 0 = 0 ∧ win0_1.index t 1 = 0
    ∧ win0_2.index t 0 = t.val ∧ win0_2.index t 1 = 0 ∧ win0_2.index t 2 = 0
    ∧ win0_3.index t 0 = t.val ∧ win0_3.index t 1 = 0 ∧ win0_3.index t 2 = 0 :=
  (by decide +kernel : ∀ t : Fin grid0.N, _)

/-- The copy of the teacher table with a unit axis inserted, as the host leaves it before the region. -/
theorem V_v16 (c : Dev nD) :
    (V m c main_v16 : FVec Ideal S256x1x1000 .f32)
      = broadcastInDim S256x1x1000 ![0, 2] bcast_S256x1000_S256x1x1000_0_2 (teacher m c) := by
  dsimp only [teacher, V, V0]
  simp only [hostOps0, hostOps0_1, hostOps0_2, List.flatten_cons, List.flatten_nil, List.append_nil, List.cons_append, List.nil_append]
  after_results_simp

/-- The same copy of the raw table. -/
theorem V_v17 (c : Dev nD) :
    (V m c main_v17 : FVec Ideal S256x1x1000 .f32)
      = broadcastInDim S256x1x1000 ![0, 2] bcast_S256x1000_S256x1x1000_0_2 (V m c main_arg0 : FVec Ideal S256x1000 .f32) := by
  dsimp only [V, V0]
  simp only [hostOps0, hostOps0_1, hostOps0_2, List.flatten_cons, List.flatten_nil, List.append_nil, List.cons_append, List.nil_append]
  after_results_simp

/-- A table with a unit axis inserted reads, at `(b, 0, k)`, the table at `(b, k)`. -/
theorem unitAxis_apply (x : FVec Ideal S256x1000 .f32) (b : Fin 256) (k : Fin 1000) :
    broadcastInDim S256x1x1000 ![0, 2] bcast_S256x1000_S256x1x1000_0_2 x (ix3 b (0 : Fin 1) k) = x (ix2 b k) :=
  broadcastInDim_apply _ bcast_S256x1000_S256x1x1000_0_2 x (ix3 b (0 : Fin 1) k) (ix2 b k) (fun a => by
    match a with
    | ⟨0, _⟩ => rfl
    | ⟨1, _⟩ => rfl)

/-- Window 0 at any anchor: the teacher table. -/
theorem iblk0_apply (c : Dev nD) (t : Fin cfg0.N) (i : Fin 256) (k : Fin 1000) :
    (iblk m c 0 t : FVec Ideal S256x1000 .f32) (ix2 i k) = teacher m c (ix2 i k) := by
  obtain ⟨h00, h01, -⟩ := idx_facts t
  unfold iblk
  rw [View.read_apply]
  show V m c main_v15 _ = V m c main_v15 _
  congr 1
  funext a
  apply Fin.ext
  match a with
  | ⟨0, _⟩ => show win0_0.index t 0 * 256 + 1 * i.val = i.val; rw [h00]; omega
  | ⟨1, _⟩ => show win0_0.index t 1 * 1000 + 1 * k.val = k.val; rw [h01]; omega

/-- Window 1 at any anchor: the student table. -/
theorem iblk1_apply (c : Dev nD) (t : Fin cfg0.N) (i : Fin 256) (k : Fin 1000) :
    (iblk m c 1 t : FVec Ideal S256x1000 .f32) (ix2 i k) = student m c (ix2 i k) := by
  obtain ⟨-, -, h10, h11, -⟩ := idx_facts t
  unfold iblk
  rw [View.read_apply]
  show V m c main_v2 _ = V m c main_v2 _
  congr 1
  funext a
  apply Fin.ext
  match a with
  | ⟨0, _⟩ => show win0_1.index t 0 * 256 + 1 * i.val = i.val; rw [h10]; omega
  | ⟨1, _⟩ => show win0_1.index t 1 * 1000 + 1 * k.val = k.val; rw [h11]; omega

/-- Window 2 at anchor `t`: row `t` of the teacher table. -/
theorem iblk2_apply (c : Dev nD) (t : Fin cfg0.N) (b : Fin 256) (hb : b.val = t.val) (k : Fin 1000) :
    (iblk m c 2 t : FVec Ideal S1x1x1000 .f32) (ix3 (0 : Fin 1) (0 : Fin 1) k) = teacher m c (ix2 b k) := by
  obtain ⟨-, -, -, -, h20, h21, h22, -⟩ := idx_facts t
  unfold iblk
  rw [View.read_apply]
  show V m c main_v16 _ = _
  rw [V_v16, ← unitAxis_apply (teacher m c) b k]
  congr 1
  funext a
  apply Fin.ext
  match a with
  | ⟨0, _⟩ => show win0_2.index t 0 * 1 + 1 * 0 = b.val; rw [h20, hb]; omega
  | ⟨1, _⟩ => show win0_2.index t 1 * 1 + 1 * 0 = 0; rw [h21]
  | ⟨2, _⟩ => show win0_2.index t 2 * 1000 + 1 * k.val = k.val; rw [h22]; omega

/-- Window 3 at anchor `t`: row `t` of the raw table. -/
theorem iblk3_apply (c : Dev nD) (t : Fin cfg0.N) (b : Fin 256) (hb : b.val = t.val) (k : Fin 1000) :
    (iblk m c 3 t : FVec Ideal S1x1x1000 .f32) (ix3 (0 : Fin 1) (0 : Fin 1) k) = raw m c (ix2 b k) := by
  obtain ⟨-, -, -, -, -, -, -, h30, h31, h32⟩ := idx_facts t
  unfold iblk
  rw [View.read_apply]
  show V m c main_v17 _ = _
  rw [V_v17, V_main_arg0 m c, ← unitAxis_apply (raw m c) b k]
  congr 1
  funext a
  apply Fin.ext
  match a with
  | ⟨0, _⟩ => show win0_3.index t 0 * 1 + 1 * 0 = b.val; rw [h30, hb]; omega
  | ⟨1, _⟩ => show win0_3.index t 1 * 1 + 1 * 0 = 0; rw [h31]
  | ⟨2, _⟩ => show win0_3.index t 2 * 1000 + 1 * k.val = k.val; rw [h32]; omega

end Cert.KernelIdeal.Blocks

end
-- ==== Proof.Chain.lean ====
/-
  The accumulator after each anchor.

  The accumulator holds, after anchor `n`, the zero the first anchor stored plus the loss sums of anchors `0, …, n`, added
  in anchor order. On the extended reals addition is associative and commutative with neutral element zero, so this is
  the sum over `b ≤ n` of the `256 × 256` loss entries of anchor `b`; after the last anchor it is the total, and the last
  anchor copies it into the output block.
-/
import proofs.«121610_j57019985822344_2_alg».proof.Proof.Pieces
import proofs.«121610_j57019985822344_2_alg».proof.Proof.PointValue
import proofs.«121610_j57019985822344_2_alg».proof.Proof.Blocks

noncomputable section

namespace Cert.KernelIdeal.Chain

open Cert.KernelIdeal Cert.KernelIdeal.Gen Idealize.ShloMosaic Idealize.ShloMosaic.TcCoe Idealize.SL.Sem
open Idealize.ShloMosaic.ValueIdx Cert.AngleLoss Cert.KernelIdeal.Blocks
open scoped BigOperators

variable (m : (ℓ : Loc nD τ sig) → Buf (Elt Ideal) ℓ)

/-- The accumulator after anchor `n`: the body's arithmetic of the anchor's blocks, over what the anchor before left (the
    stored zero at the first anchor). -/
def acc (c : Dev nD) : (n : ℕ) → n < cfg0.N → Vec Ideal S1x1 .f32
  | 0, h => Pieces.stepF (iblk m c 0 ⟨0, h⟩) (iblk m c 1 ⟨0, h⟩) (iblk m c 2 ⟨0, h⟩) (iblk m c 3 ⟨0, h⟩) (k0_pay2 (F := Ideal))
  | n + 1, h => Pieces.stepF (iblk m c 0 ⟨n + 1, h⟩) (iblk m c 1 ⟨n + 1, h⟩) (iblk m c 2 ⟨n + 1, h⟩) (iblk m c 3 ⟨n + 1, h⟩)
      (acc c n (Nat.lt_of_succ_lt h))

/-- What the generated point-by-point contents hold in the accumulator is that running value. -/
theorem outsAt_snd (c : Dev nD) : ∀ (n : ℕ) (h : n < cfg0.N), (outsAt0 m c n h).2 = acc m c n h
  | 0, h => by
    rw [outsAt0_A m c ⟨0, h⟩ rfl (by dsimp only; omega)]
    dsimp only
    rw [Pieces.sout_A (F := Ideal)]
    rfl
  | n + 1, h => by
    have hN : cfg0.N = 256 := N_0
    have h0 : ¬(⟨n + 1, h⟩ : Fin cfg0.N).val % 256 = 0 := by dsimp only; omega
    by_cases h1 : (⟨n + 1, h⟩ : Fin cfg0.N).val % 256 = 255
    · rw [outsAt0_C m c ⟨n + 1, h⟩ h0 h1]
      dsimp only
      rw [Pieces.sout_C (F := Ideal)]
      show Pieces.stepF _ _ _ _ (outsAt0 m c n _).2 = Pieces.stepF _ _ _ _ (acc m c n _)
      rw [outsAt_snd c n]
    · rw [outsAt0_B m c ⟨n + 1, h⟩ h0 h1]
      dsimp only
      rw [Pieces.sout_B (F := Ideal)]
      show Pieces.stepF _ _ _ _ (outsAt0 m c n _).2 = Pieces.stepF _ _ _ _ (acc m c n _)
      rw [outsAt_snd c n]

/-- At the last anchor the output block holds the same value. -/
theorem outsAt_fst_last (c : Dev nD) (h : 255 < cfg0.N) : (outsAt0 m c 255 h).1 = acc m c 255 h := by
  have h0 : ¬(⟨255, h⟩ : Fin cfg0.N).val % 256 = 0 := by dsimp only; omega
  have h1 : (⟨255, h⟩ : Fin cfg0.N).val % 256 = 255 := by dsimp only
  rw [outsAt0_C m c ⟨255, h⟩ h0 h1]
  dsimp only
  rw [Pieces.out_C (F := Ideal)]
  show Pieces.stepF _ _ _ _ (outsAt0 m c 254 _).2 = Pieces.stepF _ _ _ _ (acc m c 254 _)
  rw [outsAt_snd m c 254]

/-- The loss sum of anchor `b`. -/
def anchorLoss (c : Dev nD) (b : Fin 256) : EReal :=
  ∑ i : Fin 256, ∑ j : Fin 256, loss (teacher m c) (student m c) (raw m c) b i j

/-- The same, indexed by a natural number (zero beyond the last anchor). -/
def anchorLossN (c : Dev nD) (b : ℕ) : EReal := if h : b < 256 then anchorLoss m c ⟨b, h⟩ else 0

/-- One anchor adds its loss sum to the entry of the accumulator. -/
theorem step_entry (c : Dev nD) (t : Fin cfg0.N) (a : Vec Ideal S1x1 .f32) (ht : t.val < 256) :
    Pieces.stepF (iblk m c 0 t) (iblk m c 1 t) (iblk m c 2 t) (iblk m c 3 t) a (ix2 (0 : Fin 1) (0 : Fin 1))
      = a (ix2 (0 : Fin 1) (0 : Fin 1)) + anchorLoss m c ⟨t.val, ht⟩ :=
  PointValue.step_apply (teacher m c) (student m c) (raw m c) ⟨t.val, ht⟩ (iblk m c 0 t) (iblk m c 1 t) (iblk m c 2 t) (iblk m c 3 t)
    (iblk0_apply m c t) (iblk1_apply m c t) (iblk2_apply m c t ⟨t.val, ht⟩ rfl) (iblk3_apply m c t ⟨t.val, ht⟩ rfl) a

/-- After anchor `n` the accumulator's entry is the sum of the loss sums of anchors `0, …, n`. -/
theorem acc_entry (c : Dev nD) : ∀ (n : ℕ) (h : n < cfg0.N),
    acc m c n h (ix2 (0 : Fin 1) (0 : Fin 1)) = ∑ b ∈ Finset.range (n + 1), anchorLossN m c b
  | 0, h => by
    have hN : cfg0.N = 256 := N_0
    unfold acc
    rw [step_entry m c ⟨0, h⟩ _ (by dsimp only; omega), PointValue.pay2_apply, zero_add, Finset.sum_range_one]
    unfold anchorLossN
    rw [dif_pos (by decide)]
  | n + 1, h => by
    have hN : cfg0.N = 256 := N_0
    have hn : n + 1 < 256 := by omega
    unfold acc
    rw [step_entry m c ⟨n + 1, h⟩ _ hn, acc_entry c n, Finset.sum_range_succ _ (n + 1)]
    congr 1
    unfold anchorLossN
    rw [dif_pos hn]

/-- After the last anchor: the total. -/
theorem acc_last (c : Dev nD) (h : 255 < cfg0.N) :
    acc m c 255 h (ix2 (0 : Fin 1) (0 : Fin 1)) = total (teacher m c) (student m c) (raw m c) := by
  rw [acc_entry m c 255 h]
  unfold total
  rw [← Fin.sum_univ_eq_sum_range (anchorLossN m c) 256]
  refine Finset.sum_congr rfl fun b _ => ?_
  unfold anchorLossN
  rw [dif_pos b.isLt]
  rfl

end Cert.KernelIdeal.Chain

end
-- ==== Proof.KernelValue.lean ====
/-
  The kernel's run, read: its result is the total of the loss entries over `2²⁴`, times a hundred, plus the
  cross-entropy term.

  The output array is one `1 × 1` block, written back once, after the last anchor, when it holds the accumulator. The
  host lines after the region turn that entry into the program's result; the lines before it compute the teacher and
  the student tables, which are the same operations of the arguments as the reference's, as is the cross-entropy term.
-/
import proofs.«121610_j57019985822344_2_alg».proof.Proof.Chain
import proofs.«121610_j57019985822344_2_alg».proof.Proof.RefRead
import Idealize.ShloMosaic.Lib.Pipeline.Value
import Idealize.ShloMosaic.Lib.StableHlo.Run
import Idealize.ShloMosaic.Lib.Tactic

noncomputable section

namespace Cert.KernelIdeal.RunValue

open Cert.KernelIdeal Cert.KernelIdeal.Gen Idealize.ShloMosaic Idealize.ShloMosaic.TcCoe Idealize.SL.Sem
open Idealize.ShloMosaic.ValueIdx Idealize.ShloMosaic.StableHlo Cert.AngleLoss Cert.KernelIdeal.Blocks
open Idealize.ShloMosaic.Pipeline (Dat)

variable (m : (ℓ : Loc nD τ sig) → Buf (Elt Ideal) ℓ) (ρ : Dev nD → PrngReg)

/-- The last anchor. -/
abbrev tLast : Fin cfg0.N := ⟨255, by rw [show cfg0.N = 256 from N_0]; decide⟩

/-- The output block the last anchor writes back: the accumulator after it. -/
abbrev result (c : Dev nD) : Buf (Elt Ideal) ((c : Thread nD τ).loc main_v18) := Chain.acc m c 255 tLast.isLt

/-- The one write-back, after the last anchor, writes that block: the output array is one block. -/
theorem flushed_eq (c : Dev nD) (t : Fin cfg0.N) (hf : (cfg0.win 4).flush t = true) :
    (dats m 0 c).flushed 4 t = ((cfg0.win 4).blk t).view.read (Elt Ideal) (result m c) := by
  have hN : cfg0.N = 256 := N_0
  have h255 : t.val = 255 := by have := (flush0_4 t).mp hf; have := t.isLt; omega
  obtain rfl : t = tLast := Fin.ext h255
  show (cfg0.win 4).cut (grid0.coords tLast) ((dats m 0 c).after 4 tLast) = _
  rw [after0_4, Chain.outsAt_fst_last]
  have hz' : (fun a => win0_4.index tLast a * main_v18.ty.shape.size a) = fun _ => 0 := funext fun a => by fin_cases a <;> decide
  exact (Memref.read_access_unit_zero (Elt Ideal) main_v18 hz' (fun a => by rw [congrFun hz' a]; simp) (result m c)).symm

/-- So the output array ends holding the accumulator after the last anchor. -/
theorem final_o (c : Dev nD) : (dats m 0 c).arrAt 4 cfg0.N = result m c :=
  (dats m 0 c).arrAt_eq_of_cover 4 (result m c) (flushed_eq m c) fun i =>
    ⟨tLast, (flush0_4 tLast).mpr rfl, by
      show i ∈ ((View.whole main_v18).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 1 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 1 from by decide +kernel]; omega⟩

/-! ## The tables the region finds are the reference's stages -/

/-- The teacher table: the softmax of the second argument over four. -/
theorem teacher_eq (c : Dev nD) :
    teacher m c = Cert.ReferenceIdeal.ReadP.val_main_v15 (F := Ideal) (m ((c : Thread nD τ).loc main_arg1)) := by
  dsimp only [teacher, V, V0]
  simp only [hostOps0, hostOps0_1, hostOps0_2, List.flatten_cons, List.flatten_nil, List.append_nil, List.cons_append, List.nil_append]
  after_results_simp
  rfl

/-- The student table: the log-softmax of the first argument over four. The operations of a called function carry
    transports along the declared type of each buffer, there and back; they cancel. -/
theorem student_eq (c : Dev nD) :
    student m c = Cert.ReferenceIdeal.ReadP.val_main_v2 (F := Ideal) (m ((c : Thread nD τ).loc main_arg0)) := by
  dsimp only [student, V, V0]
  simp only [hostOps0, hostOps0_1, hostOps0_2, List.flatten_cons, List.flatten_nil, List.append_nil, List.cons_append, List.nil_append]
  after_results_simp
  simp only [TRef.ofBuf, TRef.toBuf, cast_cast, cast_eq]
  rfl

/-! ## The host lines after the region -/

/-- The program's result from the output block: the block's one entry over `2²⁴`, times a hundred, plus the
    cross-entropy term, which is the reference's own stage of the first and third arguments. -/
def kTail (out : FVec Ideal S1x1 .f32) (x0 : FVec Ideal S256x1000 .f32) (x2 : IVec S256 32) : FVec Ideal S_ .f32 :=
  addf (mulf (Host.divf (F := Ideal) (shapeCast S_ out shapeCasts_S1x1_S_) (constant (F := Ideal) S_ .f32 0x4B800000#32))
      (constant (F := Ideal) S_ .f32 0x42C80000#32))
    (Cert.ReferenceIdeal.ReadP.val_main_v63 (F := Ideal) x0 x2)

/-- What the lines after the region leave in the result buffer. -/
theorem tail_eq (c : Dev nD) :
    Pipeline.afterTail₀ cfgs (dats m) 0 (V0 m) [hostOps1, hostOps1_1, hostOps1_2, hostOps1_3, hostOps1_4] c main_v28
      = kTail (result m c) (m ((c : Thread nD τ).loc main_arg0)) (m ((c : Thread nD τ).loc main_arg2)) := by
  unfold Pipeline.afterTail₀
  generalize hW : Pipeline.withArrays (cfgs 0).spec c (V0 m c) (fun w => (dats m 0 c).arrAt w (cfgs 0).N) = W
  have h18 : W (Proc.devRef .tc main_v18) = result m c := by
    subst hW
    exact (Pipeline.withArrays_arr spec0 launch0.win.arr_inj c _ _ 4).trans (final_o m c)
  have h0 : W (Proc.devRef .tc main_arg0) = m ((c : Thread nD τ).loc main_arg0) := by
    subst hW
    exact (Pipeline.withArrays_of_ne _ c (V0 m c) _ main_arg0 (by exact (by decide : ∀ w, Pipeline.arrRef spec0 w ≠ main_arg0))).trans (V_main_arg0 m c)
  have h2 : W (Proc.devRef .tc main_arg2) = m ((c : Thread nD τ).loc main_arg2) := by
    subst hW
    exact (Pipeline.withArrays_of_ne _ c (V0 m c) _ main_arg2 (by exact (by decide : ∀ w, Pipeline.arrRef spec0 w ≠ main_arg2))).trans (V_main_arg2 m c)
  simp only [hostOps1, hostOps1_1, hostOps1_2, hostOps1_3, hostOps1_4, List.flatten_cons, List.flatten_nil, List.append_nil, List.cons_append, List.nil_append]
  after_results_simp
  simp only [TRef.ofBuf, TRef.toBuf, cast_cast, cast_eq]
  rw [h18, h0, h2]
  rfl

/-! ## The run -/

/-- Every weakly fair execution of the program ends with its result at `kTail` of the accumulator after the last
    anchor, the arguments unchanged. -/
theorem run : θ_run defs (onTc (τ := τ) (main (F := Ideal))) ⟨m, fun _ => 0, ρ⟩ fun r => ∀ c : Dev nD,
      r.2.mem ((c.tc : Thread nD τ).loc main_v28)
          = kTail (result m c) (m ((c : Thread nD τ).loc main_arg0)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v28 (Pipeline.mem_restRefs_of main_v28 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

/-! ## The result is the reference's last stage -/

/-- The one entry of the output block, read as a scalar, is the total of the loss entries. -/
theorem out_scalar (c : Dev nD) (i : S_.Idx) :
    shapeCast S_ (result m c) shapeCasts_S1x1_S_ i = total (teacher m c) (student m c) (raw m c) := by
  refine (shapeCast_apply (s := S1x1) (t := S_) (result m c) shapeCasts_S1x1_S_ i (ix2 (0 : Fin 1) (0 : Fin 1)) (by
    rw [Shape.rowMajor_val_two]; rfl)).trans ?_
  exact Chain.acc_last m c tLast.isLt

end Cert.KernelIdeal.RunValue

end
-- ==== Proof.LibBlockSum.lean ====
/-
  A sum over an index range of m·n terms, regrouped as m consecutive blocks of n terms each.

  For a function f on Fin (m·n) with values in a commutative additive monoid,
  the sum of f k over all k equals the sum over blocks d < m of the sum over j < n of f (j + n·d).
  Only commutativity and associativity of + are used, so the law holds on the extended reals
  (where + is total, with ⊤ + ⊥ = ⊥) without any finiteness hypothesis.
-/
import Mathlib.Algebra.BigOperators.Fin
import Mathlib.Logic.Equiv.Fin.Basic

namespace Cert.Lib

open Finset

/-- The sum over `Fin (m * n)` is the sum over the `m` blocks of the sums over each block's `n` entries;
    entry `j` of block `d` is index `j + n * d` (`finProdFinEquiv`). -/
theorem sum_blocks {M : Type*} [AddCommMonoid M] (m n : ℕ) (f : Fin (m * n) → M) :
    ∑ k, f k = ∑ d : Fin m, ∑ j : Fin n, f (finProdFinEquiv (d, j)) := by
  rw [← Equiv.sum_comp finProdFinEquiv f, Fintype.sum_prod_type]

/-- The value of entry `j` of block `d`: `j + n * d`. -/
theorem blockIdx_val (m n : ℕ) (d : Fin m) (j : Fin n) :
    (finProdFinEquiv (d, j) : Fin (m * n)).val = j.val + n * d.val := rfl

end Cert.Lib
-- ==== Proof.RefTotal.lean ====
/-
  The reference's scalar is the total of the distance-angle loss entries.

  The reference forms, for the teacher and for the student, the `256 × 256 × 1000` array of difference vectors (row `i`
  of one table minus row `b` of another), divides each vector by its Euclidean length floored at a small positive
  constant, and contracts the normalized vectors of rows `i` and `j` over the `1000` columns: the angle entry
  `(b, i, j)`. It then lays the `256³` angle entries out on one flat range, position `a` holding the entry of the
  coordinates `(a / 256², a / 256 mod 256, a mod 256)`, takes the smooth absolute value of the student's entry minus the
  teacher's at every position, and adds all positions up, starting from zero.

  Read entry by entry, each stage is the exact operation on the extended reals, so the value at a position is the loss
  entry of its coordinates. The sum over the flat range is regrouped as `256` consecutive blocks of `256²` positions,
  each of them `256` blocks of `256`; regrouping a finite sum needs only the commutativity and the associativity of
  `+`, which hold on the extended reals without any finiteness hypothesis. The result is the triple sum over
  `(b, i, j)` of the loss entries.
-/
import proofs.«121610_j57019985822344_2_alg».proof.Proof.RefRead
import proofs.«121610_j57019985822344_2_alg».proof.Proof.Spec
import proofs.«121610_j57019985822344_2_alg».proof.Proof.LibBlockSum

noncomputable section

namespace Cert.ReferenceIdeal.RefTotal

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.ReadP
open scoped BigOperators

/-! ### Regrouping a sum over a flat range -/

/-- A rank-1 index set is its one coordinate range … -/
def idxEquiv1 {n : Nat} : (⟨1, ![n]⟩ : Shape).Idx ≃ Fin n where
  toFun k := k 0
  invFun a := ix1 a
  left_inv k := (eq_ix1 k).symm
  right_inv _ := rfl

/-- … so a sum over it is the sum over the coordinate. -/
theorem sum_idx1 {M : Type*} [AddCommMonoid M] {n : Nat} (f : (⟨1, ![n]⟩ : Shape).Idx → M) :
    ∑ k, f k = ∑ a : Fin n, f (ix1 a) := by
  rw [← Equiv.sum_comp (idxEquiv1 (n := n)).symm f]
  rfl

/-- The sum over a range whose length is a product `m * n` only up to an equation, by blocks. -/
theorem sum_blocks_cast {M : Type*} [AddCommMonoid M] (N m n : ℕ) (h : m * n = N) (f : Fin N → M) :
    ∑ k, f k = ∑ d : Fin m, ∑ j : Fin n, f (Fin.cast h (finProdFinEquiv (d, j))) := by
  subst h
  exact Cert.Lib.sum_blocks m n f

/-- A sum over `256³` consecutive positions, position `a` carrying the term of the coordinates
    `(a / 256², a / 256 mod 256, a mod 256)`, is the triple sum over the coordinates: `256` blocks of `256²`
    positions, each of them `256` blocks of `256`. Only the commutative-monoid laws of `+` are used. -/
theorem sum_flat3 {M : Type*} [AddCommMonoid M] (g : Fin 256 → Fin 256 → Fin 256 → M) :
    ∑ a : Fin 16777216,
        g ⟨a.val / 65536, by have := a.isLt; omega⟩ ⟨a.val / 256 % 256, by omega⟩ ⟨a.val % 256, by omega⟩
      = ∑ b : Fin 256, ∑ i : Fin 256, ∑ j : Fin 256, g b i j := by
  rw [sum_blocks_cast 16777216 256 65536 (by norm_num)]
  refine Finset.sum_congr rfl fun b _ => ?_
  have hb := b.isLt
  calc ∑ r : Fin 65536, g ⟨(Fin.cast (by norm_num : 256 * 65536 = 16777216) (finProdFinEquiv (b, r))).val / 65536, by omega⟩
            ⟨(Fin.cast (by norm_num : 256 * 65536 = 16777216) (finProdFinEquiv (b, r))).val / 256 % 256, by omega⟩
            ⟨(Fin.cast (by norm_num : 256 * 65536 = 16777216) (finProdFinEquiv (b, r))).val % 256, by omega⟩
      = ∑ r : Fin 65536, g b ⟨r.val / 256, by have := r.isLt; omega⟩ ⟨r.val % 256, by omega⟩ := by
        refine Finset.sum_congr rfl fun r _ => ?_
        have hr := r.isLt
        congr 1
        · exact Fin.ext (by simp only [Fin.coe_cast, Cert.Lib.blockIdx_val]; omega)
        · exact Fin.ext (by simp only [Fin.coe_cast, Cert.Lib.blockIdx_val]; omega)
        · exact Fin.ext (by simp only [Fin.coe_cast, Cert.Lib.blockIdx_val]; omega)
    _ = ∑ i : Fin 256, ∑ j : Fin 256, g b i j := by
        rw [sum_blocks_cast 65536 256 256 (by norm_num)]
        refine Finset.sum_congr rfl fun i _ => Finset.sum_congr rfl fun j _ => ?_
        have hi := i.isLt; have hj := j.isLt
        congr 1
        · exact Fin.ext (by simp only [Fin.coe_cast, Cert.Lib.blockIdx_val]; omega)
        · exact Fin.ext (by simp only [Fin.coe_cast, Cert.Lib.blockIdx_val]; omega)

/-- The zero word is the extended real `0`, as a sum's initial value reads it. -/
theorem zero_word : (FloatOps.ofBits (F := Ideal) .f32 0x00000000#32 : Ideal .f32) = 0 := Ideal.ofBits_zero_f32

/-! ### The teacher's angles: its softmax table against itself -/

/-- The difference vector, read at an entry: row `i` of the first table minus row `b` of the second. -/
theorem teacher_diff (x1 : (⟨S256x1000, .f32⟩ : BufTy).Contents (Elt Ideal)) (b i : Fin 256) (c : Fin 1000) :
    val_main_v20 (F := Ideal) x1 (ix3 b i c) = AngleLoss.diff (val_main_v15 (F := Ideal) x1) (val_main_v15 (F := Ideal) x1) b i c := by
  rw [val_main_v20_apply, val_main_v18_apply, val_main_v19_apply, val_main_v16_apply, val_main_v17_apply]
  have e1 : idx_main_v16 (idx_main_v18 (ix3 b i c)) = ix2 i c := funext fun a => Fin.ext (by match a with | ⟨0, _⟩ => rfl | ⟨1, _⟩ => rfl)
  have e2 : idx_main_v17 (idx_main_v19 (ix3 b i c)) = ix2 b c := funext fun a => Fin.ext (by match a with | ⟨0, _⟩ => rfl | ⟨1, _⟩ => rfl)
  rw [e1, e2]
  rfl

/-- The floored length of the difference vector. -/
theorem teacher_len (x1 : (⟨S256x1000, .f32⟩ : BufTy).Contents (Elt Ideal)) (b i : Fin 256) :
    val_main_v26 (F := Ideal) x1 (ix3 b i (0 : Fin 1)) = AngleLoss.len (val_main_v15 (F := Ideal) x1) (val_main_v15 (F := Ideal) x1) b i := by
  rw [val_main_v26_apply, val_main_v24_apply, val_main_v25_apply, val_main_cst_5_apply, val_main_v23_apply,
    val_main_v22_apply, val_main_cst_4_apply]
  have e : ∀ k : Fin 1000, val_main_v21 (F := Ideal) x1 (idx_main_v22 (idx_main_v23 (ix3 b i (0 : Fin 1))) k)
      = AngleLoss.diff (val_main_v15 (F := Ideal) x1) (val_main_v15 (F := Ideal) x1) b i k * AngleLoss.diff (val_main_v15 (F := Ideal) x1) (val_main_v15 (F := Ideal) x1) b i k := by
    intro k
    have ek : idx_main_v22 (idx_main_v23 (ix3 b i (0 : Fin 1))) k = ix3 b i k := funext fun a => Fin.ext (by match a with | ⟨0, _⟩ => rfl | ⟨1, _⟩ => rfl | ⟨2, _⟩ => rfl)
    rw [ek, val_main_v21_apply, teacher_diff]
    rfl
  rw [Finset.sum_congr rfl fun k _ => e k, zero_word, zero_add]
  rfl

/-- The normalized difference vector. -/
theorem teacher_dir (x1 : (⟨S256x1000, .f32⟩ : BufTy).Contents (Elt Ideal)) (b i : Fin 256) (c : Fin 1000) :
    val_main_v28 (F := Ideal) x1 (ix3 b i c) = AngleLoss.dir (val_main_v15 (F := Ideal) x1) (val_main_v15 (F := Ideal) x1) b i c := by
  rw [val_main_v28_apply, teacher_diff, val_main_v27_apply]
  have e : idx_main_v27 (ix3 b i c) = ix3 b i (0 : Fin 1) := funext fun a => Fin.ext (by match a with | ⟨0, _⟩ => rfl | ⟨1, _⟩ => rfl | ⟨2, _⟩ => rfl)
  rw [e, teacher_len]
  rfl

/-- The angle entry: the inner product of two normalized difference vectors of the same anchor. -/
theorem teacher_angle (x1 : (⟨S256x1000, .f32⟩ : BufTy).Contents (Elt Ideal)) (b i j : Fin 256) :
    val_main_v29 (F := Ideal) x1 (ix3 b i j) = AngleLoss.angle (val_main_v15 (F := Ideal) x1) (val_main_v15 (F := Ideal) x1) b i j := by
  rw [val_main_v29_apply]
  unfold AngleLoss.angle
  refine Finset.sum_congr rfl fun c _ => ?_
  have el : lidx_main_v29 (ix3 b i j) c = ix3 b i c := funext fun a => Fin.ext (by match a with | ⟨0, _⟩ => rfl | ⟨1, _⟩ => rfl | ⟨2, _⟩ => rfl)
  have er : ridx_main_v29 (ix3 b i j) c = ix3 b j c := funext fun a => Fin.ext (by match a with | ⟨0, _⟩ => rfl | ⟨1, _⟩ => rfl | ⟨2, _⟩ => rfl)
  rw [el, er, teacher_dir, teacher_dir]

/-! ### The student's angles: its log-softmax table against the raw table -/

/-- The difference vector, read at an entry: row `i` of the first table minus row `b` of the second. -/
theorem student_diff (x0 : (⟨S256x1000, .f32⟩ : BufTy).Contents (Elt Ideal)) (b i : Fin 256) (c : Fin 1000) :
    val_main_v35 (F := Ideal) x0 (ix3 b i c) = AngleLoss.diff (val_main_v2 (F := Ideal) x0) x0 b i c := by
  rw [val_main_v35_apply, val_main_v33_apply, val_main_v34_apply, val_main_v31_apply, val_main_v32_apply]
  have e1 : idx_main_v31 (idx_main_v33 (ix3 b i c)) = ix2 i c := funext fun a => Fin.ext (by match a with | ⟨0, _⟩ => rfl | ⟨1, _⟩ => rfl)
  have e2 : idx_main_v32 (idx_main_v34 (ix3 b i c)) = ix2 b c := funext fun a => Fin.ext (by match a with | ⟨0, _⟩ => rfl | ⟨1, _⟩ => rfl)
  rw [e1, e2]
  rfl

/-- The floored length of the difference vector. -/
theorem student_len (x0 : (⟨S256x1000, .f32⟩ : BufTy).Contents (Elt Ideal)) (b i : Fin 256) :
    val_main_v41 (F := Ideal) x0 (ix3 b i (0 : Fin 1)) = AngleLoss.len (val_main_v2 (F := Ideal) x0) x0 b i := by
  rw [val_main_v41_apply, val_main_v39_apply, val_main_v40_apply, val_main_cst_7_apply, val_main_v38_apply,
    val_main_v37_apply, val_main_cst_6_apply]
  have e : ∀ k : Fin 1000, val_main_v36 (F := Ideal) x0 (idx_main_v37 (idx_main_v38 (ix3 b i (0 : Fin 1))) k)
      = AngleLoss.diff (val_main_v2 (F := Ideal) x0) x0 b i k * AngleLoss.diff (val_main_v2 (F := Ideal) x0) x0 b i k := by
    intro k
    have ek : idx_main_v37 (idx_main_v38 (ix3 b i (0 : Fin 1))) k = ix3 b i k := funext fun a => Fin.ext (by match a with | ⟨0, _⟩ => rfl | ⟨1, _⟩ => rfl | ⟨2, _⟩ => rfl)
    rw [ek, val_main_v36_apply, student_diff]
    rfl
  rw [Finset.sum_congr rfl fun k _ => e k, zero_word, zero_add]
  rfl

/-- The normalized difference vector. -/
theorem student_dir (x0 : (⟨S256x1000, .f32⟩ : BufTy).Contents (Elt Ideal)) (b i : Fin 256) (c : Fin 1000) :
    val_main_v43 (F := Ideal) x0 (ix3 b i c) = AngleLoss.dir (val_main_v2 (F := Ideal) x0) x0 b i c := by
  rw [val_main_v43_apply, student_diff, val_main_v42_apply]
  have e : idx_main_v42 (ix3 b i c) = ix3 b i (0 : Fin 1) := funext fun a => Fin.ext (by match a with | ⟨0, _⟩ => rfl | ⟨1, _⟩ => rfl | ⟨2, _⟩ => rfl)
  rw [e, student_len]
  rfl

/-- The angle entry: the inner product of two normalized difference vectors of the same anchor. -/
theorem student_angle (x0 : (⟨S256x1000, .f32⟩ : BufTy).Contents (Elt Ideal)) (b i j : Fin 256) :
    val_main_v44 (F := Ideal) x0 (ix3 b i j) = AngleLoss.angle (val_main_v2 (F := Ideal) x0) x0 b i j := by
  rw [val_main_v44_apply]
  unfold AngleLoss.angle
  refine Finset.sum_congr rfl fun c _ => ?_
  have el : lidx_main_v44 (ix3 b i j) c = ix3 b i c := funext fun a => Fin.ext (by match a with | ⟨0, _⟩ => rfl | ⟨1, _⟩ => rfl | ⟨2, _⟩ => rfl)
  have er : ridx_main_v44 (ix3 b i j) c = ix3 b j c := funext fun a => Fin.ext (by match a with | ⟨0, _⟩ => rfl | ⟨1, _⟩ => rfl | ⟨2, _⟩ => rfl)
  rw [el, er, student_dir, student_dir]

/-! ### The loss entries on the flat range, and their sum -/

/-- The loss entry at a flat position whose coordinates are `(b, i, j)`. -/
theorem flat_loss (x0 x1 : (⟨S256x1000, .f32⟩ : BufTy).Contents (Elt Ideal)) (k : S16777216.Idx) (b i j : Fin 256) (h : idx_main_v30 k = ix3 b i j) :
    val_main_v55 (F := Ideal) x0 x1 k = AngleLoss.loss (val_main_v15 (F := Ideal) x1) (val_main_v2 (F := Ideal) x0) x0 b i j := by
  have h45 : idx_main_v45 k = ix3 b i j := h
  rw [val_main_v55_apply, val_main_v49_apply, val_main_v52_apply, val_main_v54_apply, val_main_v51_apply,
    val_main_v47_apply, val_main_v48_apply, val_main_v50_apply, val_main_v53_apply, val_main_cst_8_apply,
    val_main_cst_9_apply, val_main_cst_10_apply, val_main_v46_apply, val_main_v45_apply, val_main_v30_apply,
    h, h45, teacher_angle, student_angle]
  rfl

/-- The reference's scalar is the total of the loss entries. -/
theorem sum_eq_total (x0 x1 : (⟨S256x1000, .f32⟩ : BufTy).Contents (Elt Ideal)) (i : S_.Idx) :
    val_main_v56 (F := Ideal) x0 x1 i = AngleLoss.total (val_main_v15 (F := Ideal) x1) (val_main_v2 (F := Ideal) x0) x0 := by
  rw [val_main_v56_apply, val_main_cst_11_apply, zero_word, zero_add, sum_idx1]
  unfold AngleLoss.total
  rw [← sum_flat3 fun b i j => AngleLoss.loss (val_main_v15 (F := Ideal) x1) (val_main_v2 (F := Ideal) x0) x0 b i j]
  refine Finset.sum_congr rfl fun a _ => ?_
  exact flat_loss x0 x1 (ix1 a) _ _ _ (funext fun a => Fin.ext (by match a with | ⟨0, _⟩ => rfl | ⟨1, _⟩ => rfl | ⟨2, _⟩ => rfl))

end Cert.ReferenceIdeal.RefTotal

end
-- ==== Proof.Bridge.lean ====
/-
  The kernel's result is the reference's last stage.

  Both programs end with the same three host operations on a scalar `s` and the same cross-entropy term: `s` over `2²⁴`,
  times a hundred, plus the term. In the kernel `s` is the one entry of the output block, the total of the loss entries
  of the teacher, student and raw tables the region finds; in the reference `s` is the sum of the flat vector of the same
  `256³` loss entries of its own stages, and those stages are the same tables.
-/
import proofs.«121610_j57019985822344_2_alg».proof.Proof.KernelValue
import proofs.«121610_j57019985822344_2_alg».proof.Proof.RefTotal

noncomputable section

namespace Cert.KernelIdeal.RunValue

open Cert.KernelIdeal Cert.KernelIdeal.Gen Idealize.ShloMosaic Idealize.ShloMosaic.TcCoe Idealize.SL.Sem
open Idealize.ShloMosaic.ValueIdx Cert.AngleLoss Cert.KernelIdeal.Blocks

variable (m : (ℓ : Loc nD τ sig) → Buf (Elt Ideal) ℓ)

/-- The scalar the kernel's tail starts from is the reference's sum stage. -/
theorem scalar_eq (c : Dev nD) :
    shapeCast S_ (result m c) shapeCasts_S1x1_S_
      = Cert.ReferenceIdeal.ReadP.val_main_v56 (F := Ideal) (m ((c : Thread nD τ).loc main_arg0)) (m ((c : Thread nD τ).loc main_arg1)) :=
  funext fun i => by
    rw [out_scalar, Cert.ReferenceIdeal.RefTotal.sum_eq_total, teacher_eq, student_eq]

/-- So the kernel's result is the reference's last stage of the same three arguments. -/
theorem result_eq (c : Dev nD) :
    kTail (result m c) (m ((c : Thread nD τ).loc main_arg0)) (m ((c : Thread nD τ).loc main_arg2))
      = Cert.ReferenceIdeal.ReadP.val_main_v65 (F := Ideal) (m ((c : Thread nD τ).loc main_arg0))
          (m ((c : Thread nD τ).loc main_arg1)) (m ((c : Thread nD τ).loc main_arg2)) := by
  unfold kTail
  rw [scalar_eq]
  rfl

end Cert.KernelIdeal.RunValue

end
-- ==== Proof.RefRunValue.lean ====
/-
  The reference's run, stated through its reading.

  The reference is a straight line of 132 host operations, each writing one buffer of its own from the buffers written
  before it. Run from any launch contents, every weakly fair execution terminates, and each buffer then holds the fold
  of the operations' results over the launch contents. Here that fold is read at the result buffer: it is the last
  stage of the reference's reading, `val_main_v65`, applied to the launch contents of the three arguments; and the
  three argument buffers, which no operation writes, hold what they held at launch.

  The fold at the result buffer is computed outermost first: at each operation the result buffer's contents are the
  operation's function of its operands' contents, and any other buffer's contents are what they were. An operation of a
  called function moves its operands and its value along the equation between a buffer's type and the type of the value
  it holds; these moves are identities and cancel. What remains is the composition of the 132 functions, which is the
  reading's stages unfolded one after the other.
-/
import proofs.«121610_j57019985822344_2_alg».proof.Proof.RefRead
import proofs.«121610_j57019985822344_2_alg».proof.Proof.RefOps

noncomputable section

namespace Cert.ReferenceIdeal.RefRunValue

open Cert.ReferenceIdeal Cert.ReferenceIdeal.Gen Idealize.ShloMosaic Idealize.ShloMosaic.TcCoe Idealize.SL.Sem Idealize.ShloMosaic.StableHlo

set_option maxRecDepth 65536 in
set_option maxHeartbeats 52800000 in
/-- After the whole line, from any contents `V`, the result buffer holds the last stage of the reading at `V`'s
    contents of the three arguments. -/
theorem after_value (V : Valuation τ sig (Elt Ideal)) :
    after (OpsP.ops (F := Ideal)) V (Proc.devRef .tc main_v65)
      = ReadP.val_main_v65 (F := Ideal) (V (Proc.devRef .tc main_arg0)) (V (Proc.devRef .tc main_arg1))
          (V (Proc.devRef .tc main_arg2)) := by
  after_results_simp
  simp only [TRef.ofBuf, TRef.toBuf, cast_cast, cast_eq]
  rfl

set_option maxRecDepth 8192 in
set_option maxHeartbeats 4000000 in
/-- No operation writes the first argument's buffer. -/
theorem after_arg0 (V : Valuation τ sig (Elt Ideal)) :
    after (OpsP.ops (F := Ideal)) V (Proc.devRef .tc main_arg0) = V (Proc.devRef .tc main_arg0) := by
  after_results_simp <;> rfl

set_option maxRecDepth 8192 in
set_option maxHeartbeats 4000000 in
/-- Nor the second's. -/
theorem after_arg1 (V : Valuation τ sig (Elt Ideal)) :
    after (OpsP.ops (F := Ideal)) V (Proc.devRef .tc main_arg1) = V (Proc.devRef .tc main_arg1) := by
  after_results_simp <;> rfl

set_option maxRecDepth 8192 in
set_option maxHeartbeats 4000000 in
/-- Nor the third's. -/
theorem after_arg2 (V : Valuation τ sig (Elt Ideal)) :
    after (OpsP.ops (F := Ideal)) V (Proc.devRef .tc main_arg2) = V (Proc.devRef .tc main_arg2) := by
  after_results_simp <;> rfl

/-- On every device, from any memory with zero counters: every weakly fair execution of the reference terminates with
    the result buffer at the reading's last stage of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v65)
          = ReadP.val_main_v65 (F := Ideal) (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v65).trans (after_value (launchContents m c)),
      (h c main_arg0).trans (after_arg0 (launchContents m c)),
      (h c main_arg1).trans (after_arg1 (launchContents m c)),
      (h c main_arg2).trans (after_arg2 (launchContents m c))⟩)
    (run_seq OpsP.scopedRefs_eq OpsP.scopedSems_eq defs main (fun _ => OpsP.ops) OpsP.main_eq (fun _ => OpsP.ops_sub) m ρ)

end Cert.ReferenceIdeal.RefRunValue

end
-- ==== Proof.lean ====
/-
  The distance-angle distillation loss: a kernel that walks the anchors one at a time against the whole-batch reference.

  For every anchor `b` both programs form, for the teacher and for the student, the `256 × 256` table of inner products
  of normalized difference rows, pass the difference of the two tables through the smooth absolute value, and sum.
  The kernel does this one anchor per grid point and carries the running sum in an accumulator; the reference builds
  the `256 × 256 × 256` tables whole, flattens them and sums the flat vector. On the extended reals a change of float
  format is the identity, a product against a transposed table is the table of inner products, and a finite sum may be
  regrouped freely (addition there is commutative and associative, with no finiteness needed), so the two sums are one
  number; the operations before the sum (the two softmaxes) and after it (the scaling and the cross-entropy term) are
  the same operations of the same arguments in both programs. The precondition is not used by the value claim.

  The frames of the two kernel programs are the generated ones; the reference's frame is its run with the result
  dropped. The ideal pass rewrote nothing, so the preservation claim is trivial.
-/
import proofs.«121610_j57019985822344_2_alg».proof.Defs
import proofs.«121610_j57019985822344_2_alg».proof.Proof.Gen.Kernel
import proofs.«121610_j57019985822344_2_alg».proof.Proof.Gen.Kernel.Frame
import proofs.«121610_j57019985822344_2_alg».proof.Proof.Gen.KernelIdeal
import proofs.«121610_j57019985822344_2_alg».proof.Proof.Gen.KernelIdeal.Frame
import proofs.«121610_j57019985822344_2_alg».proof.Proof.Gen.ReferenceIdeal
import proofs.«121610_j57019985822344_2_alg».proof.Proof.Gen.Pre_finite_inputs
import proofs.«121610_j57019985822344_2_alg».proof.Proof.Bridge
import proofs.«121610_j57019985822344_2_alg».proof.Proof.RefRunValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs and leaves its arguments alone: its run, the result forgotten. -/
theorem frame_ri : Cert.frame_ReferenceIdeal := fun m ρ _ =>
  (θ_run Cert.ReferenceIdeal.defs _ _).mono (fun _ h c => (h c).2) (Cert.ReferenceIdeal.RefRunValue.run m ρ)

theorem preserves : Cert.preserves_Kernel_KernelIdeal := trivial

/-- From memories that agree on the arguments both programs end at the reference's last stage of those arguments. -/
theorem algebraic : Cert.algebraic_KernelIdeal_ReferenceIdeal := by
  intro m ρ m' ρ' _ hagree
  refine ⟨fun c => Cert.KernelIdeal.RunValue.kTail (Cert.KernelIdeal.RunValue.result m c)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2)),
    Cert.KernelIdeal.RunValue.run m ρ, ?_⟩
  refine (θ_run Cert.ReferenceIdeal.defs _ _).mono (fun _ h c => ⟨(h c).1.trans ?_, (h c).2⟩)
    (Cert.ReferenceIdeal.RefRunValue.run m' ρ')
  rw [(hagree c).1, (hagree c).2.1, (hagree c).2.2]
  exact (Cert.KernelIdeal.RunValue.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
